-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4x2048x2048 : Shape := ⟨3, ![4, 2048, 2048]⟩
abbrev S4096x4096 : Shape := ⟨2, ![4096, 4096]⟩
abbrev S4096 : Shape := ⟨1, ![4096]⟩
abbrev S2048x4096 : Shape := ⟨2, ![2048, 4096]⟩
abbrev S1x1x4096 : Shape := ⟨3, ![1, 1, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S2048x4096 : S_.BroadcastsInDim S2048x4096 (![] : Fin 0 → Fin S2048x4096.rank)
  reducesTo_S2048x4096_S_d0_1 : S2048x4096.ReducesTo [0, 1] S_
  bcast_S_S1x1x4096 : S_.BroadcastsInDim S1x1x4096 (![] : Fin 0 → Fin S1x1x4096.rank)
  reducesTo_S1x1x4096_S_d0_1_2 : S1x1x4096.ReducesTo [0, 1, 2] S_

variable [Facts]

def fn_part2 {F : FTy → Type} [FloatOps F] (main_arg7 : FVec F S4096 .f32) (main_arg8 : FVec F S4096 .f32) (main_arg9 : FVec F S1x1x4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S1x1x4096 .f32 := Host.absf main_arg9
  let main_cst_16 : FVec F S_ .f32 := constant S_ .f32 0x7F800000#32
  let main_v45 : FVec F S1x1x4096 .f32 := broadcastInDim S1x1x4096 ![] bcast_S_S1x1x4096 main_cst_16
  let main_v46 : IVec S1x1x4096 1 := cmpf .olt main_v44 main_v45
  let main_c_17 : IVec S_ 1 := constantI S_ 1 1#1
  let main_v47 : IVec S_ 1 := (fun x v => Host.reduce IntOp.andi x v reducesTo_S1x1x4096_S_d0_1_2 h_S_) main_v46 main_c_17
  let main_v48 : IVec S_ 1 := andi main_v43 main_v47
  main_v48

def fn_part1 {F : FTy → Type} [FloatOps F] (main_arg4 : FVec F S4096 .f32) (main_arg5 : FVec F S2048x4096 .f32) (main_arg6 : FVec F S4096 .f32) (main_arg7 : FVec F S4096 .f32) (main_arg8 : FVec F S4096 .f32) (main_arg9 : FVec F S1x1x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_v33

def fn {F : FTy → Type} [FloatOps F] (main_arg0 : FVec F S4x2048x4096 .f32) (main_arg1 : FVec F S4x2048x2048 .f32) (main_arg2 : FVec F S4x2048x4096 .f32) (main_arg3 : FVec F S4096x4096 .f32) (main_arg4 : FVec F S4096 .f32) (main_arg5 : FVec F S2048x4096 .f32) (main_arg6 : FVec F S4096 .f32) (main_arg7 : FVec F S4096 .f32) (main_arg8 : FVec F S4096 .f32) (main_arg9 : FVec F S1x1x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4x2048x2048 .f32 := Host.absf main_arg1
  let main_cst_0 : FVec F S_ .f32 := constant S_ .f32 0x7F800000#32
  let main_v5 : FVec F S4x2048x2048 .f32 := broadcastInDim S4x2048x2048 ![] bcast_S_S4x2048x2048 main_cst_0
  let main_v6 : IVec S4x2048x2048 1 := cmpf .olt main_v4 main_v5
  let main_c_1 : IVec S_ 1 := constantI S_ 1 1#1
  let main_v7 : IVec S_ 1 := (fun x v => Host.reduce IntOp.andi x v reducesTo_S4x2048x2048_S_d0_1_2 h_S_) main_v6 main_c_1
  let main_v8 : IVec S_ 1 := andi main_v3 main_v7
  let main_v9 : FVec F S4x2048x4096 .f32 := Host.absf main_arg2
  let main_cst_2 : FVec F S_ .f32 := constant S_ .f32 0x7F800000#32
  let main_v10 : FVec F S4x2048x4096 .f32 := broadcastInDim S4x2048x4096 ![] bcast_S_S4x2048x4096 main_cst_2
  let main_v11 : IVec S4x2048x4096 1 := cmpf .olt main_v9 main_v10
  let main_c_3 : IVec S_ 1 := constantI S_ 1 1#1
  let main_v12 : IVec S_ 1 := (fun x v => Host.reduce IntOp.andi x v reducesTo_S4x2048x4096_S_d0_1_2 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_v13 main_v16
-- ==== Kernel.lean ====
abbrev S4x2048x4096 : Shape := ⟨3, ![4, 2048, 4096]⟩
abbrev S4x2048x2048 : Shape := ⟨3, ![4, 2048, 2048]⟩
abbrev S4096x4096 : Shape := ⟨2, ![4096, 4096]⟩
abbrev S4096 : Shape := ⟨1, ![4096]⟩
abbrev S2048x4096 : Shape := ⟨2, ![2048, 4096]⟩
abbrev S1x1x4096 : Shape := ⟨3, ![1, 1, 4096]⟩
abbrev S8192x4096 : Shape := ⟨2, ![8192, 4096]⟩
abbrev S8192x2048 : Shape := ⟨2, ![8192, 2048]⟩
abbrev S_ : Shape := ⟨0, ![]⟩
abbrev S1x4096 : Shape := ⟨2, ![1, 4096]⟩
abbrev S2048x512 : Shape := ⟨2, ![2048, 512]⟩
abbrev S512x1024 : Shape := ⟨2, ![512, 1024]⟩
abbrev S2048x1024 : Shape := ⟨2, ![2048, 1024]⟩
abbrev S1x1024 : Shape := ⟨2, ![1, 1024]⟩

abbrev nBuf : Space → Nat
  | .hbm => 44
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S4x2048x2048, .f32⟩
  | .hbm, ⟨2, _⟩ => ⟨S4x2048x4096, .f32⟩
  | .hbm, ⟨3, _⟩ => ⟨S4096x4096, .f32⟩
  | .hbm, ⟨4, _⟩ => ⟨S4096, .f32⟩
  | .hbm, ⟨5, _⟩ => ⟨S2048x4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S1x1x4096, .f32⟩
  | .hbm, ⟨10, _⟩ => ⟨S8192x4096, .f32⟩
  | .hbm, ⟨11, _⟩ => ⟨S8192x4096, .bf16⟩
  | .hbm, ⟨12, _⟩ => ⟨S8192x2048, .f32⟩
  | .hbm, ⟨13, _⟩ => ⟨S8192x2048, .bf16⟩
  | .hbm, ⟨14, _⟩ => ⟨S8192x4096, .f32⟩
  | .hbm, ⟨15, _⟩ => ⟨S4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .bf16⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x4096, .bf16⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S1x4096, .f32⟩
  | .hbm, ⟨42, _⟩ => ⟨S8192x4096, .f32⟩
  | .hbm, ⟨43, _⟩ => ⟨S4x2048x4096, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .bf16⟩
  | .local _ .vmem, ⟨5, _⟩ => ⟨S2048x512, .bf16⟩
  | .local _ .vmem, ⟨6, _⟩ => ⟨S512x1024, .bf16⟩
  | .local _ .vmem, ⟨7, _⟩ => ⟨S512x1024, .bf16⟩
  | .local _ .vmem, ⟨8, _⟩ => ⟨S2048x1024, .f32⟩
  | .local _ .vmem, ⟨9, _⟩ => ⟨S2048x1024, .f32⟩
  | .local _ .vmem, ⟨10, _⟩ => ⟨S1x1024, .f32⟩
  | .local _ .vmem, ⟨11, _⟩ => ⟨S1x1024, .f32⟩
  | .local _ .vmem, ⟨12, _⟩ => ⟨S2048x1024, .f32⟩
  | .local _ .vmem, ⟨13, _⟩ => ⟨S2048x1024, .f32⟩
  | .local _ .vmem, ⟨14, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 12], ![false, false, false]⟩

def k0_cond4 (i : grid0.Coords) : BitVec 1 :=
  let arg2 : BitVec 32 := BitVec.ofNat 32 (i 2).val
  let c11_i32 : BitVec 32 := 11#32
  let v9 : BitVec 1 := Scalar.cmpi .eq arg2 c11_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.minsi arg2 c7_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.minsi arg2 c7_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let v1 : BitVec 32 := Scalar.maxsi v0 c0_i32
  let c3_i32 : BitVec 32 := 3#32
  let v2 : BitVec 32 := Scalar.minsi v1 c3_i32
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let v1 : BitVec 32 := Scalar.maxsi v0 c0_i32
  let c3_i32 : BitVec 32 := 3#32
  let v2 : BitVec 32 := Scalar.minsi v1 c3_i32
  let c0_i32_0 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  shapeCasts_S4x2048x4096_S8192x4096 : S4x2048x4096.ShapeCasts S8192x4096
  bitsLt_bf16_f32 : FTy.bits .bf16 < FTy.bits .f32
  shapeCasts_S4x2048x2048_S8192x2048 : S4x2048x2048.ShapeCasts S8192x2048
  shapeCasts_S1x1x4096_S4096 : S1x1x4096.ShapeCasts S4096
  bcast_S_S4096x4096 : S_.BroadcastsInDim S4096x4096 (![] : Fin 0 → Fin S4096x4096.rank)
  bcast_S_S2048x4096 : S_.BroadcastsInDim S2048x4096 (![] : Fin 0 → Fin S2048x4096.rank)
  bcast_S_S4096 : S_.BroadcastsInDim S4096 (![] : Fin 0 → Fin S4096.rank)
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S8192x2048.size a
  hwx0_2 : ∀ i : grid0.Coords, EltTy.bits .bf16 = 32 ∨ (Rect.block (s := S8192x2048) S2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S2048x4096.size a
  hwx0_3 : ∀ i : grid0.Coords, EltTy.bits .bf16 = 32 ∨ (Rect.block (s := S2048x4096) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x4096.size a
  hwx0_4 : ∀ i : grid0.Coords, EltTy.bits .f32 = 32 ∨ (Rect.block (s := S8192x4096) S2048x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1024.size a ≤ S8192x4096.size a
  hwx0_6 : ∀ i : grid0.Coords, EltTy.bits .f32 = 32 ∨ (Rect.block (s := S8192x4096) S2048x1024.size (cc0_transform_6 i) (hinb0_6 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26) S2048x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond4 i == 1#1) | ⟨_ + 7, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4x2048x2048 : Shape := ⟨3, ![4, 2048, 2048]⟩
abbrev S4096x4096 : Shape := ⟨2, ![4096, 4096]⟩
abbrev S4096 : Shape := ⟨1, ![4096]⟩
abbrev S2048x4096 : Shape := ⟨2, ![2048, 4096]⟩
abbrev S1x1x4096 : Shape := ⟨3, ![1, 1, 4096]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x2048, .f32⟩
  | .hbm, ⟨2, _⟩ => ⟨S4x2048x4096, .f32⟩
  | .hbm, ⟨3, _⟩ => ⟨S4096x4096, .f32⟩
  | .hbm, ⟨4, _⟩ => ⟨S4096, .f32⟩
  | .hbm, ⟨5, _⟩ => ⟨S2048x4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S1x1x4096, .f32⟩
  | .hbm, ⟨10, _⟩ => ⟨S4x2048x4096, .f32⟩
  | .hbm, ⟨11, _⟩ => ⟨S1x1x4096, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | .hbm, ⟨15, _⟩ => ⟨S1x1x4096, .f32⟩
  | .hbm, ⟨16, _⟩ => ⟨S4x2048x4096, .f32⟩
  | .hbm, ⟨17, _⟩ => ⟨S4x2048x4096, .f32⟩
  | .hbm, ⟨18, _⟩ => ⟨S4x2048x4096, .f32⟩
  | .hbm, ⟨19, _⟩ => ⟨S_, .f32⟩
  | .hbm, ⟨20, _⟩ => ⟨S4x2048x4096, .f32⟩
  | .hbm, ⟨21, _⟩ => ⟨S4x2048x4096, .f32⟩
  | .hbm, ⟨22, _⟩ => ⟨S1x1x4096, .f32⟩
  | .hbm, ⟨23, _⟩ => ⟨S4x2048x4096, .f32⟩
  | .hbm, ⟨24, _⟩ => ⟨S4x2048x4096, .f32⟩
  | .hbm, ⟨25, _⟩ => ⟨S_, .f32⟩
  | .hbm, ⟨26, _⟩ => ⟨S4x2048x4096, .f32⟩
  | .hbm, ⟨27, _⟩ => ⟨S4x2048x4096, .f32⟩
  | .hbm, ⟨28, _⟩ => ⟨S4x2048x4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S1x1x4096, .f32⟩
  | .hbm, ⟨33, _⟩ => ⟨S4x2048x4096, .f32⟩
  | .hbm, ⟨34, _⟩ => ⟨S4x2048x4096, .f32⟩
  | .hbm, ⟨35, _⟩ => ⟨S1x1x4096, .f32⟩
  | .hbm, ⟨36, _⟩ => ⟨S_, .f32⟩
  | .hbm, ⟨37, _⟩ => ⟨S1x1x4096, .f32⟩
  | .hbm, ⟨38, _⟩ => ⟨S1x1x4096, .f32⟩
  | .hbm, ⟨39, _⟩ => ⟨S4x2048x4096, .f32⟩
  | .hbm, ⟨40, _⟩ => ⟨S4x2048x4096, .f32⟩
  | .hbm, ⟨41, _⟩ => ⟨S4x2048x4096, .f32⟩
  | .hbm, ⟨42, _⟩ => ⟨S_, .f32⟩
  | .hbm, ⟨43, _⟩ => ⟨S4x2048x4096, .f32⟩
  | .hbm, ⟨44, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  bcast_S_S4096 : S_.BroadcastsInDim S4096 (![] : Fin 0 → Fin S4096.rank)
  bcast_S_S1x1x4096 : S_.BroadcastsInDim S1x1x4096 (![] : Fin 0 → Fin S1x1x4096.rank)
  dot_S4x2048x4096_S4096x4096_S4x2048x4096_2_0_01_1_n_n_wf : DotDims.WF S4x2048x4096 S4096x4096 S4x2048x4096 [2] [0] [0, 1] [1] [] []
  dot_S4x2048x2048_S2048x4096_S4x2048x4096_2_0_01_1_n_n_wf : DotDims.WF S4x2048x2048 S2048x4096 S4x2048x4096 [2] [0] [0, 1] [1] [] []

variable [Facts₀]

def dot_S4x2048x4096_S4096x4096_S4x2048x4096_2_0_01_1_n_n : DotDims S4x2048x4096 S4096x4096 S4x2048x4096 where
  lhsContracting := [2]
  rhsContracting := [0]
  lhsNonContracting := [0, 1]
  rhsNonContracting := [1]
  lhsBatch := []
  rhsBatch := []
  wf := dot_S4x2048x4096_S4096x4096_S4x2048x4096_2_0_01_1_n_n_wf
def dot_S4x2048x2048_S2048x4096_S4x2048x4096_2_0_01_1_n_n : DotDims S4x2048x2048 S2048x4096 S4x2048x4096 where
  lhsContracting := [2]
  rhsContracting := [0]
  lhsNonContracting := [0, 1]
  rhsNonContracting := [1]
  lhsBatch := []
  rhsBatch := []
  wf := dot_S4x2048x2048_S2048x4096_S4x2048x4096_2_0_01_1_n_n_wf

class Facts : Prop extends Facts₀ where

variable [Facts]
-- ==== Proof.KbCases.lean ====
/-
  The twelve steps of one output tile, by cases.

  The grid is 4 × 4 × 12; the last coordinate k = t mod 12 of point t is the step along the contracted axis. The body
  has four guarded parts: at k = 0 it clears the accumulator; for k < 8 it adds one 512-deep slab of the first product;
  for k ≥ 8 one slab of the second; at k = 11 it also finishes the tile (adds the noise term and the per-feature row,
  takes tanh) and stores it. So a point is in one of four cases: k = 0 (clear, then add), 1 ≤ k ≤ 7 (add a slab of the
  first product), 8 ≤ k ≤ 10 (add a slab of the second), k = 11 (add the last slab, then finish and store).
  Here: the four guards as the body computes them, each decided over the 192 points as a condition on t mod 12;
  where the output window is idle (every point with k ≠ 11: nothing is stored and nothing is written back); names for
  the buffers the body is called with; and the region's resource with the accumulator named.
-/
import proofs.«122913_j10041633538618_2_alg».proof.Proof.Gen.Kernel.Frame
import proofs.«122913_j10041633538618_2_alg».proof.Proof.Gen.Kernel.Skeleton

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The four guards -/

/-- The guard of the clearing part: k = 0. -/
abbrev gClear (i : grid0.Coords) : Prop := (Scalar.cmpi .ne (Scalar.extui (Scalar.cmpi .eq (BitVec.ofNat 32 (i 2).val) 0#32)) 0#32) = 1#1
/-- The guard of the first product's part: k < 8. -/
abbrev gFirst (i : grid0.Coords) : Prop := (Scalar.cmpi .ne (Scalar.extui (Scalar.cmpi .slt (BitVec.ofNat 32 (i 2).val) 8#32)) 0#32) = 1#1
/-- The guard of the second product's part: k ≥ 8. -/
abbrev gSecond (i : grid0.Coords) : Prop := (Scalar.cmpi .ne (Scalar.extui (Scalar.cmpi .sge (BitVec.ofNat 32 (i 2).val) 8#32)) 0#32) = 1#1
/-- The guard of the finishing part: k = 11. -/
abbrev gLast (i : grid0.Coords) : Prop := k0_cond4 i = 1#1

theorem gClear_iff : ∀ t : Fin cfg0.N, gClear (grid0.coords t) ↔ t.val % 12 = 0 :=
  (by decide +kernel : ∀ t : Fin grid0.N, gClear (grid0.coords t) ↔ t.val % 12 = 0)
theorem gFirst_iff : ∀ t : Fin cfg0.N, gFirst (grid0.coords t) ↔ t.val % 12 < 8 :=
  (by decide +kernel : ∀ t : Fin grid0.N, gFirst (grid0.coords t) ↔ t.val % 12 < 8)
theorem gSecond_iff : ∀ t : Fin cfg0.N, gSecond (grid0.coords t) ↔ 8 ≤ t.val % 12 :=
  (by decide +kernel : ∀ t : Fin grid0.N, gSecond (grid0.coords t) ↔ 8 ≤ t.val % 12)
theorem gLast_iff : ∀ t : Fin cfg0.N, gLast (grid0.coords t) ↔ t.val % 12 = 11 :=
  (by decide +kernel : ∀ t : Fin grid0.N, gLast (grid0.coords t) ↔ t.val % 12 = 11)

/-! ## Where the output window is idle -/

/-- Away from the last step nothing is stored into the output's buffer, -/
theorem outIdle : ∀ t : Fin cfg0.N, t.val % 12 ≠ 11 → cfg0.idle 6 (grid0.coords t) = true :=
  (by decide +kernel : ∀ t : Fin grid0.N, t.val % 12 ≠ 11 → cfg0.idle 6 (grid0.coords t) = true)
/-- and nothing is written back. -/
theorem outNoFlush : ∀ t : Fin cfg0.N, t.val % 12 ≠ 11 → (cfg0.win 6).flush t = false :=
  (by decide +kernel : ∀ t : Fin grid0.N, t.val % 12 ≠ 11 → (cfg0.win 6).flush t = false)
/-- At the last step the tile is stored. -/
theorem outLive : ∀ t : Fin cfg0.N, t.val % 12 = 11 → cfg0.idle 6 (grid0.coords t) = false :=
  (by decide +kernel : ∀ t : Fin grid0.N, t.val % 12 = 11 → cfg0.idle 6 (grid0.coords t) = false)

/-! ## The buffers the body is called with -/

abbrev ms0 (t : Fin cfg0.N) : Memref sig .tc .vmem S2048x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x1024 .f32 := win0_6.stage (cfg0.slots t 6)
abbrev hs6 (t : Fin cfg0.N) : (ms6 t).IsWhole := hstage0_6 ((cfg0.slots t 6).cast nbuf0_6)
/-- The accumulator: a whole buffer of the kernel's own, kept from point to point. -/
abbrev accM : Memref sig .tc .vmem S2048x1024 .f32 := Memref.whole cc0_scratch0
/-- The accumulator as a view: what it holds is stated through it. -/
abbrev accV : View sig .tc .vmem S2048x1024 .f32 := accM.view
/-- One buffer of the output window, through which a stored tile is stated (which one does not matter for pieces that cover it). -/
abbrev outV : View sig .tc .vmem S2048x1024 .f32 := (Memref.whole cc0_stg6_0 : Memref sig .tc .vmem S2048x1024 .f32).view

/-- The region's resource beside the windows: the accumulator at some contents, and the generator register. -/
theorem regionRes_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Acc

end
-- ==== Proof.KbRunA.lean ====
/-
  One case of the body, run whole: AT THE FIRST STEP (k = 0) the body clears the accumulator, whatever it held, and adds the first slab of the first product; the output's buffer is handed back untouched.
  The statement is a triple over any whole buffers: the six input blocks are held at their contents and given back as
  they were; the accumulator ends with a list of stored pieces written into it, and that list — found when the body is
  run — is the witness of the statement.
-/
import proofs.«122913_j10041633538618_2_alg».proof.Proof.KbCases

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- AT THE FIRST STEP (k = 0) the body clears the accumulator, whatever it held, and adds the first slab of the first product; the output's buffer is handed back untouched. -/
noncomputable def runA (c : Dev nD) (t : Fin cfg0.N) (hk : t.val % 12 = 0) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) :
    { LS : List (View.Piece (Elt F) S2048x1024 .f32) //
      ∀ (xi : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi ∗ (∃ f, arg10.view.loc (c : Thread nD τ) ↦[arg10.view.set]{fullShare} arg10.view.writes (Elt F) f LS)) -∗ K ⟨⟩))
          ⊢ wp frame (wpE (defs₀ (F := F)) Variants.none c none) E (cc0__fused_kernel (grid0.coords t) arg3 harg3 arg4 harg4 arg5 harg5 arg6 harg6 arg7 harg7 arg8 harg8 arg9 harg9 arg10 harg10) K } := by
  refine ⟨?_, fun xi E K => ?run⟩
  case run =>
    have hc1 : gClear (grid0.coords t) := (gClear_iff t).mpr hk
    have hc2 : gFirst (grid0.coords t) := (gFirst_iff t).mpr (by omega)
    have hc3 : ¬gSecond (grid0.coords t) := fun h => absurd ((gSecond_iff t).mp h) (by omega)
    have hc4 : ¬gLast (grid0.coords t) := fun h => absurd ((gLast_iff t).mp h) (by omega)
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6;
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS

end Cert.Kernel.Acc

end
-- ==== Proof.KbRunB.lean ====
/-
  One case of the body, run whole: AT THE STEPS 1 ≤ k ≤ 7 the body adds one slab of the first product to what the accumulator held; the output's buffer is handed back untouched.
  The statement is a triple over any whole buffers: the six input blocks are held at their contents and given back as
  they were; the accumulator ends with a list of stored pieces written into it, and that list — found when the body is
  run — is the witness of the statement.
-/
import proofs.«122913_j10041633538618_2_alg».proof.Proof.KbRunA

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- AT THE STEPS 1 ≤ k ≤ 7 the body adds one slab of the first product to what the accumulator held; the output's buffer is handed back untouched. -/
noncomputable def runB (c : Dev nD) (t : Fin cfg0.N) (h0 : t.val % 12 ≠ 0) (h8 : t.val % 12 < 8) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) :
    { LS : List (View.Piece (Elt F) S2048x1024 .f32) //
      ∀ (xi : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi ∗ owns (c : Thread nD τ) arg10 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi ∗ (∃ f, arg10.view.loc (c : Thread nD τ) ↦[arg10.view.set]{fullShare} arg10.view.writes (Elt F) f LS)) -∗ K ⟨⟩))
          ⊢ wp frame (wpE (defs₀ (F := F)) Variants.none c none) E (cc0__fused_kernel (grid0.coords t) arg3 harg3 arg4 harg4 arg5 harg5 arg6 harg6 arg7 harg7 arg8 harg8 arg9 harg9 arg10 harg10) K } := by
  refine ⟨?_, fun xi E K => ?run⟩
  case run =>
    have hc1 : ¬gClear (grid0.coords t) := fun h => h0 ((gClear_iff t).mp h)
    have hc2 : gFirst (grid0.coords t) := (gFirst_iff t).mpr h8
    have hc3 : ¬gSecond (grid0.coords t) := fun h => absurd ((gSecond_iff t).mp h) (by omega)
    have hc4 : ¬gLast (grid0.coords t) := fun h => absurd ((gLast_iff t).mp h) (by omega)
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hfs
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS

end Cert.Kernel.Acc

end
-- ==== Proof.KbRunC.lean ====
/-
  One case of the body, run whole: AT THE STEPS 8 ≤ k ≤ 10 the body adds one slab of the second product to what the accumulator held; the output's buffer is handed back untouched.
  The statement is a triple over any whole buffers: the six input blocks are held at their contents and given back as
  they were; the accumulator ends with a list of stored pieces written into it, and that list — found when the body is
  run — is the witness of the statement.
-/
import proofs.«122913_j10041633538618_2_alg».proof.Proof.KbRunB

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- AT THE STEPS 8 ≤ k ≤ 10 the body adds one slab of the second product to what the accumulator held; the output's buffer is handed back untouched. -/
noncomputable def runC (c : Dev nD) (t : Fin cfg0.N) (h8 : 8 ≤ t.val % 12) (h11 : t.val % 12 ≠ 11) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) :
    { LS : List (View.Piece (Elt F) S2048x1024 .f32) //
      ∀ (xi : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi ∗ owns (c : Thread nD τ) arg10 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi ∗ (∃ f, arg10.view.loc (c : Thread nD τ) ↦[arg10.view.set]{fullShare} arg10.view.writes (Elt F) f LS)) -∗ K ⟨⟩))
          ⊢ wp frame (wpE (defs₀ (F := F)) Variants.none c none) E (cc0__fused_kernel (grid0.coords t) arg3 harg3 arg4 harg4 arg5 harg5 arg6 harg6 arg7 harg7 arg8 harg8 arg9 harg9 arg10 harg10) K } := by
  refine ⟨?_, fun xi E K => ?run⟩
  case run =>
    have hc1 : ¬gClear (grid0.coords t) := fun h => absurd ((gClear_iff t).mp h) (by omega)
    have hc2 : ¬gFirst (grid0.coords t) := fun h => absurd ((gFirst_iff t).mp h) (by omega)
    have hc3 : gSecond (grid0.coords t) := (gSecond_iff t).mpr h8
    have hc4 : ¬gLast (grid0.coords t) := fun h => h11 ((gLast_iff t).mp h)
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hfs
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS

end Cert.Kernel.Acc

end
-- ==== Proof.KbRunD.lean ====
/-
  One case of the body, run whole: AT THE LAST STEP (k = 11) the body adds the last slab of the second product, then finishes the tile from the accumulator, the noise block and the per-feature row, and stores it into the output's buffer, whatever that held.
  The statement is a triple over any whole buffers: the six input blocks are held at their contents and given back as
  they were; the accumulator ends with a list of stored pieces written into it, and that list — found when the body is
  run — is the witness of the statement, as is the list of pieces stored into the output's buffer.
-/
import proofs.«122913_j10041633538618_2_alg».proof.Proof.KbRunC

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- AT THE LAST STEP (k = 11) the body adds the last slab of the second product, then finishes the tile from the accumulator, the noise block and the per-feature row, and stores it into the output's buffer, whatever that held. -/
noncomputable def runD (c : Dev nD) (t : Fin cfg0.N) (h11 : t.val % 12 = 11) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) :
    Σ' (LO : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LS)) -∗ K ⟨⟩))
          ⊢ wp frame (wpE (defs₀ (F := F)) Variants.none c none) E (cc0__fused_kernel (grid0.coords t) arg3 harg3 arg4 harg4 arg5 harg5 arg6 harg6 arg7 harg7 arg8 harg8 arg9 harg9 arg10 harg10) K } := by
  refine ⟨?_, ?_, fun E K => ?run⟩
  case run =>
    have hc1 : ¬gClear (grid0.coords t) := fun h => absurd ((gClear_iff t).mp h) (by omega)
    have hc2 : ¬gFirst (grid0.coords t) := fun h => absurd ((gFirst_iff t).mp h) (by omega)
    have hc3 : gSecond (grid0.coords t) := (gSecond_iff t).mpr (by omega)
    have hc4 : gLast (grid0.coords t) := (gLast_iff t).mpr h11
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg10.eq_unread hfs
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; iexact H6
    iexists _; iexact HS

end Cert.Kernel.Acc

end
-- ==== Proof.KbFrame.lean ====
/-
  The accumulation over the grid, and the frame.

  Each of the four cases leaves, in the accumulator (and at the last step in the output's buffer), the pieces its run
  stored; read back, those are values. What the accumulator holds after point t is then defined by recursion on t: at
  a first step (t mod 12 = 0) the case's value from the point's blocks alone, at every other step the case's value from
  the point's blocks and what the point before left. The region's resource names the accumulator's contents between
  points, so that each point finds what the one before left; the output window is idle except at last steps, where the
  finished tile is stored and written back. With this proof data the body meets its obligation at every point (by
  cases on t mod 12), the program runs to the end, and its argument arrays end unchanged.
-/
import proofs.«122913_j10041633538618_2_alg».proof.Proof.KbRunD

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The pieces case A stores into the accumulator cover it (one whole-tile store comes last). -/
theorem accCoverA (c : Dev nD) (t : Fin cfg0.N) (hk : t.val % 12 = 0) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (y : S2048x1024.Idx) :
    ∃ pc ∈ (runA c t hk arg3 harg3 arg4 harg4 arg5 harg5 arg6 harg6 arg7 harg7 arg8 harg8 arg9 harg9 arg10 harg10 x0 x1 x2 x3 x4 x5).1, y ∈ pc.1.set :=
  View.cover_of_tiledL (runA c t hk arg3 harg3 arg4 harg4 arg5 harg5 arg6 harg6 arg7 harg7 arg8 harg8 arg9 harg9 arg10 harg10 x0 x1 x2 x3 x4 x5).1 S2048x1024.size (by sl_kernel_rfl) y

/-- What case A leaves in the accumulator: its pieces read back. -/
def accA (c : Dev nD) (t : Fin cfg0.N) (hk : t.val % 12 = 0) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) : Vec F S2048x1024 .f32 :=
  accV.read (Elt F) (accV.writes (Elt F) accV.junk (runA c t hk arg3 harg3 arg4 harg4 arg5 harg5 arg6 harg6 arg7 harg7 arg8 harg8 arg9 harg9 arg10 harg10 x0 x1 x2 x3 x4 x5).1)

/-- The pieces case B stores into the accumulator cover it (one whole-tile store comes last). -/
theorem accCoverB (c : Dev nD) (t : Fin cfg0.N) (h0 : t.val % 12 ≠ 0) (h8 : t.val % 12 < 8) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) (y : S2048x1024.Idx) :
    ∃ pc ∈ (runB c t h0 h8 arg3 harg3 arg4 harg4 arg5 harg5 arg6 harg6 arg7 harg7 arg8 harg8 arg9 harg9 arg10 harg10 x0 x1 x2 x3 x4 x5 xs).1, y ∈ pc.1.set :=
  View.cover_of_tiledL (runB c t h0 h8 arg3 harg3 arg4 harg4 arg5 harg5 arg6 harg6 arg7 harg7 arg8 harg8 arg9 harg9 arg10 harg10 x0 x1 x2 x3 x4 x5 xs).1 S2048x1024.size (by sl_kernel_rfl) y

/-- What case B leaves in the accumulator: its pieces read back. -/
def accB (c : Dev nD) (t : Fin cfg0.N) (h0 : t.val % 12 ≠ 0) (h8 : t.val % 12 < 8) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) : Vec F S2048x1024 .f32 :=
  accV.read (Elt F) (accV.writes (Elt F) accV.junk (runB c t h0 h8 arg3 harg3 arg4 harg4 arg5 harg5 arg6 harg6 arg7 harg7 arg8 harg8 arg9 harg9 arg10 harg10 x0 x1 x2 x3 x4 x5 xs).1)

/-- The pieces case C stores into the accumulator cover it (one whole-tile store comes last). -/
theorem accCoverC (c : Dev nD) (t : Fin cfg0.N) (h8 : 8 ≤ t.val % 12) (h11 : t.val % 12 ≠ 11) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) (y : S2048x1024.Idx) :
    ∃ pc ∈ (runC c t h8 h11 arg3 harg3 arg4 harg4 arg5 harg5 arg6 harg6 arg7 harg7 arg8 harg8 arg9 harg9 arg10 harg10 x0 x1 x2 x3 x4 x5 xs).1, y ∈ pc.1.set :=
  View.cover_of_tiledL (runC c t h8 h11 arg3 harg3 arg4 harg4 arg5 harg5 arg6 harg6 arg7 harg7 arg8 harg8 arg9 harg9 arg10 harg10 x0 x1 x2 x3 x4 x5 xs).1 S2048x1024.size (by sl_kernel_rfl) y

/-- What case C leaves in the accumulator: its pieces read back. -/
def accC (c : Dev nD) (t : Fin cfg0.N) (h8 : 8 ≤ t.val % 12) (h11 : t.val % 12 ≠ 11) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) : Vec F S2048x1024 .f32 :=
  accV.read (Elt F) (accV.writes (Elt F) accV.junk (runC c t h8 h11 arg3 harg3 arg4 harg4 arg5 harg5 arg6 harg6 arg7 harg7 arg8 harg8 arg9 harg9 arg10 harg10 x0 x1 x2 x3 x4 x5 xs).1)

/-- The pieces case D stores into the accumulator cover it (one whole-tile store comes last). -/
theorem accCoverD (c : Dev nD) (t : Fin cfg0.N) (h11 : t.val % 12 = 11) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) (y : S2048x1024.Idx) :
    ∃ pc ∈ (runD c t h11 arg3 harg3 arg4 harg4 arg5 harg5 arg6 harg6 arg7 harg7 arg8 harg8 arg9 harg9 arg10 harg10 x0 x1 x2 x3 x4 x5 xs).2.1, y ∈ pc.1.set :=
  View.cover_of_tiledL (runD c t h11 arg3 harg3 arg4 harg4 arg5 harg5 arg6 harg6 arg7 harg7 arg8 harg8 arg9 harg9 arg10 harg10 x0 x1 x2 x3 x4 x5 xs).2.1 S2048x1024.size (by sl_kernel_rfl) y

/-- What case D leaves in the accumulator: its pieces read back. -/
def accD (c : Dev nD) (t : Fin cfg0.N) (h11 : t.val % 12 = 11) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) : Vec F S2048x1024 .f32 :=
  accV.read (Elt F) (accV.writes (Elt F) accV.junk (runD c t h11 arg3 harg3 arg4 harg4 arg5 harg5 arg6 harg6 arg7 harg7 arg8 harg8 arg9 harg9 arg10 harg10 x0 x1 x2 x3 x4 x5 xs).2.1)

/-- The pieces case D stores into the output's buffer cover it. -/
theorem outCoverD (c : Dev nD) (t : Fin cfg0.N) (h11 : t.val % 12 = 11) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) (y : S2048x1024.Idx) :
    ∃ pc ∈ (runD c t h11 arg3 harg3 arg4 harg4 arg5 harg5 arg6 harg6 arg7 harg7 arg8 harg8 arg9 harg9 arg10 harg10 x0 x1 x2 x3 x4 x5 xs).1, y ∈ pc.1.set :=
  View.cover_of_tiledL (runD c t h11 arg3 harg3 arg4 harg4 arg5 harg5 arg6 harg6 arg7 harg7 arg8 harg8 arg9 harg9 arg10 harg10 x0 x1 x2 x3 x4 x5 xs).1 S2048x1024.size (by sl_kernel_rfl) y

/-- The tile case D stores into the output's buffer: its pieces read back. -/
def outD (c : Dev nD) (t : Fin cfg0.N) (h11 : t.val % 12 = 11) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) : Vec F S2048x1024 .f32 :=
  outV.read (Elt F) (outV.writes (Elt F) outV.junk (runD c t h11 arg3 harg3 arg4 harg4 arg5 harg5 arg6 harg6 arg7 harg7 arg8 harg8 arg9 harg9 arg10 harg10 x0 x1 x2 x3 x4 x5 xs).1)

/-- What the output's buffer is said to hold at a point where nothing is stored into it: a placeholder nothing reads
    (the window is idle there and not written back). -/
def idleTile : Vec F S2048x1024 .f32 := outV.read (Elt F) outV.junk

/-! ## Point by point -/

/-- After point `n`: what the output's buffer holds (a finished tile at a last step, the placeholder elsewhere) and
    what the accumulator holds. -/
def stepAt (c : Dev nD) : (n : ℕ) → n < cfg0.N → Vec F S2048x1024 .f32 × Vec F S2048x1024 .f32
  | 0, hn => (idleTile, accA c ⟨0, hn⟩ (Nat.zero_mod _) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 12 = 0 then
      (idleTile, accA c ⟨n + 1, hn⟩ h0 (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else if h8 : (n + 1) % 12 < 8 then
      (idleTile, accB c ⟨n + 1, hn⟩ h0 h8 (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (stepAt c n (Nat.lt_of_succ_lt hn)).2)
    else if h11 : (n + 1) % 12 = 11 then
      (outD c ⟨n + 1, hn⟩ h11 (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (stepAt c n (Nat.lt_of_succ_lt hn)).2,
       accD c ⟨n + 1, hn⟩ h11 (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (stepAt c n (Nat.lt_of_succ_lt hn)).2)
    else
      (idleTile, accC c ⟨n + 1, hn⟩ (Nat.le_of_not_lt h8) h11 (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (stepAt c n (Nat.lt_of_succ_lt hn)).2)

theorem stepAt_A (c : Dev nD) (t : Fin cfg0.N) (hk : t.val % 12 = 0) :
    stepAt m c t.val t.isLt = (idleTile, accA c t hk (ms0 t) (hs0 t) (ms1 t) (hs1 t) (ms2 t) (hs2 t) (ms3 t) (hs3 t) (ms4 t) (hs4 t) (ms5 t) (hs5 t) (ms6 t) (hs6 t) accM (Memref.isWhole_whole _) (iblk m c 0 t) (iblk m c 1 t) (iblk m c 2 t) (iblk m c 3 t) (iblk m c 4 t) (iblk m c 5 t)) := by
  obtain ⟨n, hn⟩ := t
  cases n with
  | zero => exact rfl
  | succ n => exact (dif_pos hk).trans rfl

theorem stepAt_B (c : Dev nD) (t : Fin cfg0.N) (h0 : t.val % 12 ≠ 0) (h8 : t.val % 12 < 8) :
    stepAt m c t.val t.isLt = (idleTile, accB c t h0 h8 (ms0 t) (hs0 t) (ms1 t) (hs1 t) (ms2 t) (hs2 t) (ms3 t) (hs3 t) (ms4 t) (hs4 t) (ms5 t) (hs5 t) (ms6 t) (hs6 t) accM (Memref.isWhole_whole _) (iblk m c 0 t) (iblk m c 1 t) (iblk m c 2 t) (iblk m c 3 t) (iblk m c 4 t) (iblk m c 5 t) (stepAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h8).trans rfl)

theorem stepAt_C (c : Dev nD) (t : Fin cfg0.N) (h8 : 8 ≤ t.val % 12) (h11 : t.val % 12 ≠ 11) :
    stepAt m c t.val t.isLt = (idleTile, accC c t h8 h11 (ms0 t) (hs0 t) (ms1 t) (hs1 t) (ms2 t) (hs2 t) (ms3 t) (hs3 t) (ms4 t) (hs4 t) (ms5 t) (hs5 t) (ms6 t) (hs6 t) accM (Memref.isWhole_whole _) (iblk m c 0 t) (iblk m c 1 t) (iblk m c 2 t) (iblk m c 3 t) (iblk m c 4 t) (iblk m c 5 t) (stepAt m c (t.val - 1) (Nat.lt_of_le_of_lt (Nat.sub_le _ _) t.isLt)).2) := by
  obtain ⟨n, hn⟩ := t
  cases n with
  | zero => exact absurd h8 (by show ¬8 ≤ 0 % 12; decide)
  | succ n =>
    have h0 : ¬(n + 1) % 12 = 0 := fun h => by have := h8; dsimp only at this; omega
    have h8' : ¬(n + 1) % 12 < 8 := fun h => by have := h8; dsimp only at this; omega
    exact (dif_neg h0).trans ((dif_neg h8').trans ((dif_neg h11).trans rfl))

theorem stepAt_D (c : Dev nD) (t : Fin cfg0.N) (h11 : t.val % 12 = 11) :
    stepAt m c t.val t.isLt = (outD c t h11 (ms0 t) (hs0 t) (ms1 t) (hs1 t) (ms2 t) (hs2 t) (ms3 t) (hs3 t) (ms4 t) (hs4 t) (ms5 t) (hs5 t) (ms6 t) (hs6 t) accM (Memref.isWhole_whole _) (iblk m c 0 t) (iblk m c 1 t) (iblk m c 2 t) (iblk m c 3 t) (iblk m c 4 t) (iblk m c 5 t) (stepAt m c (t.val - 1) (Nat.lt_of_le_of_lt (Nat.sub_le _ _) t.isLt)).2,
      accD c t h11 (ms0 t) (hs0 t) (ms1 t) (hs1 t) (ms2 t) (hs2 t) (ms3 t) (hs3 t) (ms4 t) (hs4 t) (ms5 t) (hs5 t) (ms6 t) (hs6 t) accM (Memref.isWhole_whole _) (iblk m c 0 t) (iblk m c 1 t) (iblk m c 2 t) (iblk m c 3 t) (iblk m c 4 t) (iblk m c 5 t) (stepAt m c (t.val - 1) (Nat.lt_of_le_of_lt (Nat.sub_le _ _) t.isLt)).2) := by
  obtain ⟨n, hn⟩ := t
  cases n with
  | zero => exact absurd h11 (by show ¬0 % 12 = 11; decide)
  | succ n =>
    have h0 : ¬(n + 1) % 12 = 0 := fun h => by have := h11; dsimp only at this; omega
    have h8' : ¬(n + 1) % 12 < 8 := fun h => by have := h11; dsimp only at this; omega
    exact (dif_neg h0).trans ((dif_neg h8').trans ((dif_pos h11).trans rfl))

/-! ## The region's resource between points -/

/-- Before point `n`: at the start the accumulator at anything; afterwards at what point `n - 1` left. -/
def regionAt (c : Dev nD) : (n : ℕ) → n ≤ cfg0.N → sProp 𝕄
  | 0, _ => Pipeline.ΦA spec0 c
  | n + 1, hn => iprop(iprop(owns (c : Thread nD τ) accM fullShare ((stepAt m c n hn).2)) ∗ (∃ r, prngReg c r))

theorem regionAt_zero (c : Dev nD) (n : ℕ) (h : n ≤ cfg0.N) (hz : n = 0) : regionAt m c n h = Pipeline.ΦA spec0 c := by
  subst hz; rfl

theorem regionAt_succ (c : Dev nD) (n : ℕ) (hn : n < cfg0.N) :
    regionAt m c (n + 1) hn = iprop(iprop(owns (c : Thread nD τ) accM fullShare ((stepAt m c n hn).2)) ∗ (∃ r, prngReg c r)) := rfl

theorem regionAt_pos (c : Dev nD) (n : ℕ) (h : n ≤ cfg0.N) (hz : n ≠ 0) :
    regionAt m c n h = iprop(iprop(owns (c : Thread nD τ) accM fullShare ((stepAt m c (n - 1) (by omega)).2)) ∗ (∃ r, prngReg c r)) := by
  cases n with
  | zero => exact absurd rfl hz
  | succ n => rfl

/-! ## The proof data -/

/-- On core `c`: the arrays as the region finds them; after the body at point `t` each input's buffer at its block
    and the output's at `stepAt`; the resource `regionAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stepAt m c t.val t.isLt).1
  Φ t := regionAt m c t.val (Nat.le_of_lt_succ t.isLt)
  q _ := fullShare
  owed _ := 0

theorem A_eq (c : Dev nD) (w : Fin cfg0.W) : (dats m 0 c).A w = V m c (Pipeline.arrRef spec0 w) := by
  dsimp only [dats]

theorem region_castSucc (c : Dev nD) (t : Fin cfg0.N) :
    (dats m 0 c).Φ t.castSucc = regionAt m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (stepAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- An input's buffer is handed back at its block. -/
theorem leaves_in (c : Dev nD) (t : Fin cfg0.N) (w : Fin cfg0.W) (hw : cfg0.idle w (grid0.coords t) = false) :
    (dats m 0 c).leavesExact w t = owns (c : Thread nD τ) ((cfg0.win w).stage (cfg0.slots t w)) fullShare ((dats m 0 c).after w t) := by
  unfold Dat.leavesExact; rw [hw]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

set_option maxHeartbeats 8000000 in
/-- The body at any point: the inputs' buffers hold their blocks; t mod 12 says which case the point is in; the
    resource hands the body the accumulator at what the point before left (at anything at the very first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = regionAt m c (t.val + 1) t.isLt from rfl, regionAt_succ]
  rw [leaves_in m c t 0 rfl, leaves_in m c t 1 rfl, leaves_in m c t 2 rfl, leaves_in m c t 3 rfl, leaves_in m c t 4 rfl,
    leaves_in m c t 5 rfl, after_0, after_1, after_2, after_3, after_4, after_5]
  have hN : t.val < 192 := lt_of_lt_of_eq t.isLt (show cfg0.N = 192 from N_0)
  by_cases h0 : t.val % 12 = 0
  · rw [Dat.leavesExact_idle (dats m 0 c) 6 t (outIdle t (by omega)) (outNoFlush t (by omega))]
    rw [stepAt_A m c t h0]
    unfold accA; (try dsimp only)
    by_cases hz : t.val = 0
    · rw [region_castSucc m c t, regionAt_zero m c _ _ hz, regionRes_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runA c t h0 _ _ _ _ _ _ _ _ _ _ _ _ _ _ _ _ (iblk m c 0 t) (iblk m c 1 t) (iblk m c 2 t) (iblk m c 3 t) (iblk m c 4 t) (iblk m c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hg]
      · isplitl [HS]
        · unfold owns; iexists _; isplitr
          swap; · iexact HS
          ipureintro; exact View.read_writes_of_cover _ _ _ _ _ (accCoverA c t h0 _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [region_castSucc m c t, regionAt_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runA c t h0 _ _ _ _ _ _ _ _ _ _ _ _ _ _ _ _ (iblk m c 0 t) (iblk m c 1 t) (iblk m c 2 t) (iblk m c 3 t) (iblk m c 4 t) (iblk m c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [HS Hg]
      · isplitl [HS]
        · unfold owns; iexists _; isplitr
          swap; · iexact HS
          ipureintro; exact View.read_writes_of_cover _ _ _ _ _ (accCoverA c t h0 _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h8 : t.val % 12 < 8
    · rw [Dat.leavesExact_idle (dats m 0 c) 6 t (outIdle t (by omega)) (outNoFlush t (by omega))]
      rw [stepAt_B m c t h0 h8]
      unfold accB; (try dsimp only)
      rw [region_castSucc m c t, regionAt_pos m c _ _ hz]
      · iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((runB c t h0 h8 _ _ _ _ _ _ _ _ _ _ _ _ _ _ _ _ (iblk m c 0 t) (iblk m c 1 t) (iblk m c 2 t) (iblk m c 3 t) (iblk m c 4 t) (iblk m c 5 t) _).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, ⟨%es, HS⟩⟩
        isplitl [HS Hg]
        · isplitl [HS]
          · unfold owns; iexists _; isplitr
            swap; · iexact HS
            ipureintro; exact View.read_writes_of_cover _ _ _ _ _ (accCoverB c t h0 h8 _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · by_cases h11 : t.val % 12 = 11
      · rw [leaves_in m c t 6 (outLive t h11), after_6]
        rw [stepAt_D m c t h11]
        unfold outD accD; (try dsimp only)
        rw [region_castSucc m c t, regionAt_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((runD c t h11 _ _ _ _ _ _ _ _ _ _ _ _ _ _ _ _ (iblk m c 0 t) (iblk m c 1 t) (iblk m c 2 t) (iblk m c 3 t) (iblk m c 4 t) (iblk m c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS]; · iexact HS
        iintro ⟨H0, H1, H2, H3, H4, H5, ⟨%e6, H6⟩, ⟨%es, HS⟩⟩
        isplitl [HS Hg]
        · isplitl [HS]
          · unfold owns; iexists _; isplitr
            swap; · iexact HS
            ipureintro; exact View.read_writes_of_cover _ _ _ _ _ (accCoverD c t h11 _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (outCoverD c t h11 _ _ _ _ _ _ _ _ _ _ _ _ _ _ _ _ _ _ _ _ _ _ _)
      · rw [Dat.leavesExact_idle (dats m 0 c) 6 t (outIdle t h11) (outNoFlush t h11)]
        rw [stepAt_C m c t (Nat.le_of_not_lt h8) h11]
        unfold accC; (try dsimp only)
        rw [region_castSucc m c t, regionAt_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((runC c t (Nat.le_of_not_lt h8) h11 _ _ _ _ _ _ _ _ _ _ _ _ _ _ _ _ (iblk m c 0 t) (iblk m c 1 t) (iblk m c 2 t) (iblk m c 3 t) (iblk m c 4 t) (iblk m c 5 t) _).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, ⟨%es, HS⟩⟩
        isplitl [HS Hg]
        · isplitl [HS]
          · unfold owns; iexists _; isplitr
            swap; · iexact HS
            ipureintro; exact View.read_writes_of_cover _ _ _ _ _ (accCoverC c t (Nat.le_of_not_lt h8) h11 _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The body's obligation, at every point. -/
theorem body_obligation (c : Dev nD) : BodyObligation (dats (F := F) m 0 c) (defs₀ (F := F)) Variants.none () Set.univ := fun t => by
  rw [bigSep_W0, bigSep_W0]
  exact sound_body m c t

theorem region_in (c : Dev nD) : Pipeline.ΦA spec0 c ⊢ (dats m 0 c).Φ 0 := by
  rw [show (dats m 0 c).Φ 0 = regionAt m c 0 (Nat.zero_le _) from rfl, regionAt_zero m c 0 _ rfl]
  try exact Idealize.SL.BI.Entails.refl _

/-- After the last point the accumulator's contents are forgotten. -/
theorem region_out (c : Dev nD) : (dats m 0 c).Φ (Fin.last cfg0.N) ⊢ Pipeline.ΦA spec0 c := by
  rw [show (dats m 0 c).Φ (Fin.last cfg0.N) = regionAt m c (Fin.last cfg0.N).val (Nat.le_of_lt_succ (Fin.last cfg0.N).isLt) from rfl,
    regionAt_pos m c _ _ (by rw [Fin.val_last]; have : cfg0.N = 192 := N_0; omega), regionRes_eq]
  iintro ⟨HS, Hg⟩
  isplitl [HS]
  · iexists _; iexact HS
  iexact Hg

/-! ## The run and the frame -/

set_option backward.isDefEq.respectTransparency.types false in
/-- Every weakly fair execution of the program terminates, and in every final state each array of the pipeline holds
    what the proof data computes and every other unscoped buffer what the host lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := region_in m) (hout := region_out m)

/-- The program runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Acc

end
-- ==== Proof.KiCases.lean ====
/-
  The twelve steps of one output tile, by cases.

  The grid is 4 × 4 × 12; the last coordinate k = t mod 12 of point t is the step along the contracted axis. The body
  has four guarded parts: at k = 0 it clears the accumulator; for k < 8 it adds one 512-deep slab of the first product;
  for k ≥ 8 one slab of the second; at k = 11 it also finishes the tile (adds the noise term and the per-feature row,
  takes tanh) and stores it. So a point is in one of four cases: k = 0 (clear, then add), 1 ≤ k ≤ 7 (add a slab of the
  first product), 8 ≤ k ≤ 10 (add a slab of the second), k = 11 (add the last slab, then finish and store).
  Here: the four guards as the body computes them, each decided over the 192 points as a condition on t mod 12;
  where the output window is idle (every point with k ≠ 11: nothing is stored and nothing is written back); names for
  the buffers the body is called with; and the region's resource with the accumulator named.
-/
import proofs.«122913_j10041633538618_2_alg».proof.Proof.Gen.KernelIdeal.Frame
import proofs.«122913_j10041633538618_2_alg».proof.Proof.Gen.KernelIdeal.Skeleton

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The four guards -/

/-- The guard of the clearing part: k = 0. -/
abbrev gClear (i : grid0.Coords) : Prop := (Scalar.cmpi .ne (Scalar.extui (Scalar.cmpi .eq (BitVec.ofNat 32 (i 2).val) 0#32)) 0#32) = 1#1
/-- The guard of the first product's part: k < 8. -/
abbrev gFirst (i : grid0.Coords) : Prop := (Scalar.cmpi .ne (Scalar.extui (Scalar.cmpi .slt (BitVec.ofNat 32 (i 2).val) 8#32)) 0#32) = 1#1
/-- The guard of the second product's part: k ≥ 8. -/
abbrev gSecond (i : grid0.Coords) : Prop := (Scalar.cmpi .ne (Scalar.extui (Scalar.cmpi .sge (BitVec.ofNat 32 (i 2).val) 8#32)) 0#32) = 1#1
/-- The guard of the finishing part: k = 11. -/
abbrev gLast (i : grid0.Coords) : Prop := k0_cond4 i = 1#1

theorem gClear_iff : ∀ t : Fin cfg0.N, gClear (grid0.coords t) ↔ t.val % 12 = 0 :=
  (by decide +kernel : ∀ t : Fin grid0.N, gClear (grid0.coords t) ↔ t.val % 12 = 0)
theorem gFirst_iff : ∀ t : Fin cfg0.N, gFirst (grid0.coords t) ↔ t.val % 12 < 8 :=
  (by decide +kernel : ∀ t : Fin grid0.N, gFirst (grid0.coords t) ↔ t.val % 12 < 8)
theorem gSecond_iff : ∀ t : Fin cfg0.N, gSecond (grid0.coords t) ↔ 8 ≤ t.val % 12 :=
  (by decide +kernel : ∀ t : Fin grid0.N, gSecond (grid0.coords t) ↔ 8 ≤ t.val % 12)
theorem gLast_iff : ∀ t : Fin cfg0.N, gLast (grid0.coords t) ↔ t.val % 12 = 11 :=
  (by decide +kernel : ∀ t : Fin grid0.N, gLast (grid0.coords t) ↔ t.val % 12 = 11)

/-! ## Where the output window is idle -/

/-- Away from the last step nothing is stored into the output's buffer, -/
theorem outIdle : ∀ t : Fin cfg0.N, t.val % 12 ≠ 11 → cfg0.idle 6 (grid0.coords t) = true :=
  (by decide +kernel : ∀ t : Fin grid0.N, t.val % 12 ≠ 11 → cfg0.idle 6 (grid0.coords t) = true)
/-- and nothing is written back. -/
theorem outNoFlush : ∀ t : Fin cfg0.N, t.val % 12 ≠ 11 → (cfg0.win 6).flush t = false :=
  (by decide +kernel : ∀ t : Fin grid0.N, t.val % 12 ≠ 11 → (cfg0.win 6).flush t = false)
/-- At the last step the tile is stored. -/
theorem outLive : ∀ t : Fin cfg0.N, t.val % 12 = 11 → cfg0.idle 6 (grid0.coords t) = false :=
  (by decide +kernel : ∀ t : Fin grid0.N, t.val % 12 = 11 → cfg0.idle 6 (grid0.coords t) = false)

/-! ## The buffers the body is called with -/

abbrev ms0 (t : Fin cfg0.N) : Memref sig .tc .vmem S2048x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x1024 .f32 := win0_6.stage (cfg0.slots t 6)
abbrev hs6 (t : Fin cfg0.N) : (ms6 t).IsWhole := hstage0_6 ((cfg0.slots t 6).cast nbuf0_6)
/-- The accumulator: a whole buffer of the kernel's own, kept from point to point. -/
abbrev accM : Memref sig .tc .vmem S2048x1024 .f32 := Memref.whole cc0_scratch0
/-- The accumulator as a view: what it holds is stated through it. -/
abbrev accV : View sig .tc .vmem S2048x1024 .f32 := accM.view
/-- One buffer of the output window, through which a stored tile is stated (which one does not matter for pieces that cover it). -/
abbrev outV : View sig .tc .vmem S2048x1024 .f32 := (Memref.whole cc0_stg6_0 : Memref sig .tc .vmem S2048x1024 .f32).view

/-- The region's resource beside the windows: the accumulator at some contents, and the generator register. -/
theorem regionRes_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Acc

end
-- ==== Proof.KiRunA.lean ====
/-
  One case of the body, run whole: AT THE FIRST STEP (k = 0) the body clears the accumulator, whatever it held, and adds the first slab of the first product; the output's buffer is handed back untouched.
  The statement is a triple over any whole buffers: the six input blocks are held at their contents and given back as
  they were; the accumulator ends with a list of stored pieces written into it, and that list — found when the body is
  run — is the witness of the statement.
-/
import proofs.«122913_j10041633538618_2_alg».proof.Proof.KiCases

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- AT THE FIRST STEP (k = 0) the body clears the accumulator, whatever it held, and adds the first slab of the first product; the output's buffer is handed back untouched. -/
noncomputable def runA (c : Dev nD) (t : Fin cfg0.N) (hk : t.val % 12 = 0) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) :
    { LS : List (View.Piece (Elt F) S2048x1024 .f32) //
      ∀ (xi : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi ∗ (∃ f, arg10.view.loc (c : Thread nD τ) ↦[arg10.view.set]{fullShare} arg10.view.writes (Elt F) f LS)) -∗ K ⟨⟩))
          ⊢ wp frame (wpE (defs₀ (F := F)) Variants.none c none) E (cc0__fused_kernel (grid0.coords t) arg3 harg3 arg4 harg4 arg5 harg5 arg6 harg6 arg7 harg7 arg8 harg8 arg9 harg9 arg10 harg10) K } := by
  refine ⟨?_, fun xi E K => ?run⟩
  case run =>
    have hc1 : gClear (grid0.coords t) := (gClear_iff t).mpr hk
    have hc2 : gFirst (grid0.coords t) := (gFirst_iff t).mpr (by omega)
    have hc3 : ¬gSecond (grid0.coords t) := fun h => absurd ((gSecond_iff t).mp h) (by omega)
    have hc4 : ¬gLast (grid0.coords t) := fun h => absurd ((gLast_iff t).mp h) (by omega)
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6;
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS

end Cert.KernelIdeal.Acc

end
-- ==== Proof.KiRunB.lean ====
/-
  One case of the body, run whole: AT THE STEPS 1 ≤ k ≤ 7 the body adds one slab of the first product to what the accumulator held; the output's buffer is handed back untouched.
  The statement is a triple over any whole buffers: the six input blocks are held at their contents and given back as
  they were; the accumulator ends with a list of stored pieces written into it, and that list — found when the body is
  run — is the witness of the statement.
-/
import proofs.«122913_j10041633538618_2_alg».proof.Proof.KiRunA

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- AT THE STEPS 1 ≤ k ≤ 7 the body adds one slab of the first product to what the accumulator held; the output's buffer is handed back untouched. -/
noncomputable def runB (c : Dev nD) (t : Fin cfg0.N) (h0 : t.val % 12 ≠ 0) (h8 : t.val % 12 < 8) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) :
    { LS : List (View.Piece (Elt F) S2048x1024 .f32) //
      ∀ (xi : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi ∗ owns (c : Thread nD τ) arg10 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi ∗ (∃ f, arg10.view.loc (c : Thread nD τ) ↦[arg10.view.set]{fullShare} arg10.view.writes (Elt F) f LS)) -∗ K ⟨⟩))
          ⊢ wp frame (wpE (defs₀ (F := F)) Variants.none c none) E (cc0__fused_kernel (grid0.coords t) arg3 harg3 arg4 harg4 arg5 harg5 arg6 harg6 arg7 harg7 arg8 harg8 arg9 harg9 arg10 harg10) K } := by
  refine ⟨?_, fun xi E K => ?run⟩
  case run =>
    have hc1 : ¬gClear (grid0.coords t) := fun h => h0 ((gClear_iff t).mp h)
    have hc2 : gFirst (grid0.coords t) := (gFirst_iff t).mpr h8
    have hc3 : ¬gSecond (grid0.coords t) := fun h => absurd ((gSecond_iff t).mp h) (by omega)
    have hc4 : ¬gLast (grid0.coords t) := fun h => absurd ((gLast_iff t).mp h) (by omega)
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hfs
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS

end Cert.KernelIdeal.Acc

end
-- ==== Proof.KiRunC.lean ====
/-
  One case of the body, run whole: AT THE STEPS 8 ≤ k ≤ 10 the body adds one slab of the second product to what the accumulator held; the output's buffer is handed back untouched.
  The statement is a triple over any whole buffers: the six input blocks are held at their contents and given back as
  they were; the accumulator ends with a list of stored pieces written into it, and that list — found when the body is
  run — is the witness of the statement.
-/
import proofs.«122913_j10041633538618_2_alg».proof.Proof.KiRunB

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- AT THE STEPS 8 ≤ k ≤ 10 the body adds one slab of the second product to what the accumulator held; the output's buffer is handed back untouched. -/
noncomputable def runC (c : Dev nD) (t : Fin cfg0.N) (h8 : 8 ≤ t.val % 12) (h11 : t.val % 12 ≠ 11) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) :
    { LS : List (View.Piece (Elt F) S2048x1024 .f32) //
      ∀ (xi : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi ∗ owns (c : Thread nD τ) arg10 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi ∗ (∃ f, arg10.view.loc (c : Thread nD τ) ↦[arg10.view.set]{fullShare} arg10.view.writes (Elt F) f LS)) -∗ K ⟨⟩))
          ⊢ wp frame (wpE (defs₀ (F := F)) Variants.none c none) E (cc0__fused_kernel (grid0.coords t) arg3 harg3 arg4 harg4 arg5 harg5 arg6 harg6 arg7 harg7 arg8 harg8 arg9 harg9 arg10 harg10) K } := by
  refine ⟨?_, fun xi E K => ?run⟩
  case run =>
    have hc1 : ¬gClear (grid0.coords t) := fun h => absurd ((gClear_iff t).mp h) (by omega)
    have hc2 : ¬gFirst (grid0.coords t) := fun h => absurd ((gFirst_iff t).mp h) (by omega)
    have hc3 : gSecond (grid0.coords t) := (gSecond_iff t).mpr h8
    have hc4 : ¬gLast (grid0.coords t) := fun h => h11 ((gLast_iff t).mp h)
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hfs
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS

end Cert.KernelIdeal.Acc

end
-- ==== Proof.KiRunD.lean ====
/-
  One case of the body, run whole: AT THE LAST STEP (k = 11) the body adds the last slab of the second product, then finishes the tile from the accumulator, the noise block and the per-feature row, and stores it into the output's buffer, whatever that held.
  The statement is a triple over any whole buffers: the six input blocks are held at their contents and given back as
  they were; the accumulator ends with a list of stored pieces written into it, and that list — found when the body is
  run — is the witness of the statement, as is the list of pieces stored into the output's buffer.
-/
import proofs.«122913_j10041633538618_2_alg».proof.Proof.KiRunC

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- AT THE LAST STEP (k = 11) the body adds the last slab of the second product, then finishes the tile from the accumulator, the noise block and the per-feature row, and stores it into the output's buffer, whatever that held. -/
noncomputable def runD (c : Dev nD) (t : Fin cfg0.N) (h11 : t.val % 12 = 11) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) :
    Σ' (LO : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LS)) -∗ K ⟨⟩))
          ⊢ wp frame (wpE (defs₀ (F := F)) Variants.none c none) E (cc0__fused_kernel (grid0.coords t) arg3 harg3 arg4 harg4 arg5 harg5 arg6 harg6 arg7 harg7 arg8 harg8 arg9 harg9 arg10 harg10) K } := by
  refine ⟨?_, ?_, fun E K => ?run⟩
  case run =>
    have hc1 : ¬gClear (grid0.coords t) := fun h => absurd ((gClear_iff t).mp h) (by omega)
    have hc2 : ¬gFirst (grid0.coords t) := fun h => absurd ((gFirst_iff t).mp h) (by omega)
    have hc3 : gSecond (grid0.coords t) := (gSecond_iff t).mpr (by omega)
    have hc4 : gLast (grid0.coords t) := (gLast_iff t).mpr h11
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg10.eq_unread hfs
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; iexact H6
    iexists _; iexact HS

end Cert.KernelIdeal.Acc

end
-- ==== Proof.KiFrame.lean ====
/-
  The accumulation over the grid, and the frame.

  Each of the four cases leaves, in the accumulator (and at the last step in the output's buffer), the pieces its run
  stored; read back, those are values. What the accumulator holds after point t is then defined by recursion on t: at
  a first step (t mod 12 = 0) the case's value from the point's blocks alone, at every other step the case's value from
  the point's blocks and what the point before left. The region's resource names the accumulator's contents between
  points, so that each point finds what the one before left; the output window is idle except at last steps, where the
  finished tile is stored and written back. With this proof data the body meets its obligation at every point (by
  cases on t mod 12), the program runs to the end, and its argument arrays end unchanged.
-/
import proofs.«122913_j10041633538618_2_alg».proof.Proof.KiRunD

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The pieces case A stores into the accumulator cover it (one whole-tile store comes last). -/
theorem accCoverA (c : Dev nD) (t : Fin cfg0.N) (hk : t.val % 12 = 0) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (y : S2048x1024.Idx) :
    ∃ pc ∈ (runA c t hk arg3 harg3 arg4 harg4 arg5 harg5 arg6 harg6 arg7 harg7 arg8 harg8 arg9 harg9 arg10 harg10 x0 x1 x2 x3 x4 x5).1, y ∈ pc.1.set :=
  View.cover_of_tiledL (runA c t hk arg3 harg3 arg4 harg4 arg5 harg5 arg6 harg6 arg7 harg7 arg8 harg8 arg9 harg9 arg10 harg10 x0 x1 x2 x3 x4 x5).1 S2048x1024.size (by sl_kernel_rfl) y

/-- What case A leaves in the accumulator: its pieces read back. -/
def accA (c : Dev nD) (t : Fin cfg0.N) (hk : t.val % 12 = 0) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) : Vec F S2048x1024 .f32 :=
  accV.read (Elt F) (accV.writes (Elt F) accV.junk (runA c t hk arg3 harg3 arg4 harg4 arg5 harg5 arg6 harg6 arg7 harg7 arg8 harg8 arg9 harg9 arg10 harg10 x0 x1 x2 x3 x4 x5).1)

/-- The pieces case B stores into the accumulator cover it (one whole-tile store comes last). -/
theorem accCoverB (c : Dev nD) (t : Fin cfg0.N) (h0 : t.val % 12 ≠ 0) (h8 : t.val % 12 < 8) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) (y : S2048x1024.Idx) :
    ∃ pc ∈ (runB c t h0 h8 arg3 harg3 arg4 harg4 arg5 harg5 arg6 harg6 arg7 harg7 arg8 harg8 arg9 harg9 arg10 harg10 x0 x1 x2 x3 x4 x5 xs).1, y ∈ pc.1.set :=
  View.cover_of_tiledL (runB c t h0 h8 arg3 harg3 arg4 harg4 arg5 harg5 arg6 harg6 arg7 harg7 arg8 harg8 arg9 harg9 arg10 harg10 x0 x1 x2 x3 x4 x5 xs).1 S2048x1024.size (by sl_kernel_rfl) y

/-- What case B leaves in the accumulator: its pieces read back. -/
def accB (c : Dev nD) (t : Fin cfg0.N) (h0 : t.val % 12 ≠ 0) (h8 : t.val % 12 < 8) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) : Vec F S2048x1024 .f32 :=
  accV.read (Elt F) (accV.writes (Elt F) accV.junk (runB c t h0 h8 arg3 harg3 arg4 harg4 arg5 harg5 arg6 harg6 arg7 harg7 arg8 harg8 arg9 harg9 arg10 harg10 x0 x1 x2 x3 x4 x5 xs).1)

/-- The pieces case C stores into the accumulator cover it (one whole-tile store comes last). -/
theorem accCoverC (c : Dev nD) (t : Fin cfg0.N) (h8 : 8 ≤ t.val % 12) (h11 : t.val % 12 ≠ 11) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) (y : S2048x1024.Idx) :
    ∃ pc ∈ (runC c t h8 h11 arg3 harg3 arg4 harg4 arg5 harg5 arg6 harg6 arg7 harg7 arg8 harg8 arg9 harg9 arg10 harg10 x0 x1 x2 x3 x4 x5 xs).1, y ∈ pc.1.set :=
  View.cover_of_tiledL (runC c t h8 h11 arg3 harg3 arg4 harg4 arg5 harg5 arg6 harg6 arg7 harg7 arg8 harg8 arg9 harg9 arg10 harg10 x0 x1 x2 x3 x4 x5 xs).1 S2048x1024.size (by sl_kernel_rfl) y

/-- What case C leaves in the accumulator: its pieces read back. -/
def accC (c : Dev nD) (t : Fin cfg0.N) (h8 : 8 ≤ t.val % 12) (h11 : t.val % 12 ≠ 11) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) : Vec F S2048x1024 .f32 :=
  accV.read (Elt F) (accV.writes (Elt F) accV.junk (runC c t h8 h11 arg3 harg3 arg4 harg4 arg5 harg5 arg6 harg6 arg7 harg7 arg8 harg8 arg9 harg9 arg10 harg10 x0 x1 x2 x3 x4 x5 xs).1)

/-- The pieces case D stores into the accumulator cover it (one whole-tile store comes last). -/
theorem accCoverD (c : Dev nD) (t : Fin cfg0.N) (h11 : t.val % 12 = 11) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) (y : S2048x1024.Idx) :
    ∃ pc ∈ (runD c t h11 arg3 harg3 arg4 harg4 arg5 harg5 arg6 harg6 arg7 harg7 arg8 harg8 arg9 harg9 arg10 harg10 x0 x1 x2 x3 x4 x5 xs).2.1, y ∈ pc.1.set :=
  View.cover_of_tiledL (runD c t h11 arg3 harg3 arg4 harg4 arg5 harg5 arg6 harg6 arg7 harg7 arg8 harg8 arg9 harg9 arg10 harg10 x0 x1 x2 x3 x4 x5 xs).2.1 S2048x1024.size (by sl_kernel_rfl) y

/-- What case D leaves in the accumulator: its pieces read back. -/
def accD (c : Dev nD) (t : Fin cfg0.N) (h11 : t.val % 12 = 11) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) : Vec F S2048x1024 .f32 :=
  accV.read (Elt F) (accV.writes (Elt F) accV.junk (runD c t h11 arg3 harg3 arg4 harg4 arg5 harg5 arg6 harg6 arg7 harg7 arg8 harg8 arg9 harg9 arg10 harg10 x0 x1 x2 x3 x4 x5 xs).2.1)

/-- The pieces case D stores into the output's buffer cover it. -/
theorem outCoverD (c : Dev nD) (t : Fin cfg0.N) (h11 : t.val % 12 = 11) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) (y : S2048x1024.Idx) :
    ∃ pc ∈ (runD c t h11 arg3 harg3 arg4 harg4 arg5 harg5 arg6 harg6 arg7 harg7 arg8 harg8 arg9 harg9 arg10 harg10 x0 x1 x2 x3 x4 x5 xs).1, y ∈ pc.1.set :=
  View.cover_of_tiledL (runD c t h11 arg3 harg3 arg4 harg4 arg5 harg5 arg6 harg6 arg7 harg7 arg8 harg8 arg9 harg9 arg10 harg10 x0 x1 x2 x3 x4 x5 xs).1 S2048x1024.size (by sl_kernel_rfl) y

/-- The tile case D stores into the output's buffer: its pieces read back. -/
def outD (c : Dev nD) (t : Fin cfg0.N) (h11 : t.val % 12 = 11) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) : Vec F S2048x1024 .f32 :=
  outV.read (Elt F) (outV.writes (Elt F) outV.junk (runD c t h11 arg3 harg3 arg4 harg4 arg5 harg5 arg6 harg6 arg7 harg7 arg8 harg8 arg9 harg9 arg10 harg10 x0 x1 x2 x3 x4 x5 xs).1)

/-- What the output's buffer is said to hold at a point where nothing is stored into it: a placeholder nothing reads
    (the window is idle there and not written back). -/
def idleTile : Vec F S2048x1024 .f32 := outV.read (Elt F) outV.junk

/-! ## Point by point -/

/-- After point `n`: what the output's buffer holds (a finished tile at a last step, the placeholder elsewhere) and
    what the accumulator holds. -/
def stepAt (c : Dev nD) : (n : ℕ) → n < cfg0.N → Vec F S2048x1024 .f32 × Vec F S2048x1024 .f32
  | 0, hn => (idleTile, accA c ⟨0, hn⟩ (Nat.zero_mod _) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 12 = 0 then
      (idleTile, accA c ⟨n + 1, hn⟩ h0 (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else if h8 : (n + 1) % 12 < 8 then
      (idleTile, accB c ⟨n + 1, hn⟩ h0 h8 (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (stepAt c n (Nat.lt_of_succ_lt hn)).2)
    else if h11 : (n + 1) % 12 = 11 then
      (outD c ⟨n + 1, hn⟩ h11 (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (stepAt c n (Nat.lt_of_succ_lt hn)).2,
       accD c ⟨n + 1, hn⟩ h11 (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (stepAt c n (Nat.lt_of_succ_lt hn)).2)
    else
      (idleTile, accC c ⟨n + 1, hn⟩ (Nat.le_of_not_lt h8) h11 (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (stepAt c n (Nat.lt_of_succ_lt hn)).2)

theorem stepAt_A (c : Dev nD) (t : Fin cfg0.N) (hk : t.val % 12 = 0) :
    stepAt m c t.val t.isLt = (idleTile, accA c t hk (ms0 t) (hs0 t) (ms1 t) (hs1 t) (ms2 t) (hs2 t) (ms3 t) (hs3 t) (ms4 t) (hs4 t) (ms5 t) (hs5 t) (ms6 t) (hs6 t) accM (Memref.isWhole_whole _) (iblk m c 0 t) (iblk m c 1 t) (iblk m c 2 t) (iblk m c 3 t) (iblk m c 4 t) (iblk m c 5 t)) := by
  obtain ⟨n, hn⟩ := t
  cases n with
  | zero => exact rfl
  | succ n => exact (dif_pos hk).trans rfl

theorem stepAt_B (c : Dev nD) (t : Fin cfg0.N) (h0 : t.val % 12 ≠ 0) (h8 : t.val % 12 < 8) :
    stepAt m c t.val t.isLt = (idleTile, accB c t h0 h8 (ms0 t) (hs0 t) (ms1 t) (hs1 t) (ms2 t) (hs2 t) (ms3 t) (hs3 t) (ms4 t) (hs4 t) (ms5 t) (hs5 t) (ms6 t) (hs6 t) accM (Memref.isWhole_whole _) (iblk m c 0 t) (iblk m c 1 t) (iblk m c 2 t) (iblk m c 3 t) (iblk m c 4 t) (iblk m c 5 t) (stepAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h8).trans rfl)

theorem stepAt_C (c : Dev nD) (t : Fin cfg0.N) (h8 : 8 ≤ t.val % 12) (h11 : t.val % 12 ≠ 11) :
    stepAt m c t.val t.isLt = (idleTile, accC c t h8 h11 (ms0 t) (hs0 t) (ms1 t) (hs1 t) (ms2 t) (hs2 t) (ms3 t) (hs3 t) (ms4 t) (hs4 t) (ms5 t) (hs5 t) (ms6 t) (hs6 t) accM (Memref.isWhole_whole _) (iblk m c 0 t) (iblk m c 1 t) (iblk m c 2 t) (iblk m c 3 t) (iblk m c 4 t) (iblk m c 5 t) (stepAt m c (t.val - 1) (Nat.lt_of_le_of_lt (Nat.sub_le _ _) t.isLt)).2) := by
  obtain ⟨n, hn⟩ := t
  cases n with
  | zero => exact absurd h8 (by show ¬8 ≤ 0 % 12; decide)
  | succ n =>
    have h0 : ¬(n + 1) % 12 = 0 := fun h => by have := h8; dsimp only at this; omega
    have h8' : ¬(n + 1) % 12 < 8 := fun h => by have := h8; dsimp only at this; omega
    exact (dif_neg h0).trans ((dif_neg h8').trans ((dif_neg h11).trans rfl))

theorem stepAt_D (c : Dev nD) (t : Fin cfg0.N) (h11 : t.val % 12 = 11) :
    stepAt m c t.val t.isLt = (outD c t h11 (ms0 t) (hs0 t) (ms1 t) (hs1 t) (ms2 t) (hs2 t) (ms3 t) (hs3 t) (ms4 t) (hs4 t) (ms5 t) (hs5 t) (ms6 t) (hs6 t) accM (Memref.isWhole_whole _) (iblk m c 0 t) (iblk m c 1 t) (iblk m c 2 t) (iblk m c 3 t) (iblk m c 4 t) (iblk m c 5 t) (stepAt m c (t.val - 1) (Nat.lt_of_le_of_lt (Nat.sub_le _ _) t.isLt)).2,
      accD c t h11 (ms0 t) (hs0 t) (ms1 t) (hs1 t) (ms2 t) (hs2 t) (ms3 t) (hs3 t) (ms4 t) (hs4 t) (ms5 t) (hs5 t) (ms6 t) (hs6 t) accM (Memref.isWhole_whole _) (iblk m c 0 t) (iblk m c 1 t) (iblk m c 2 t) (iblk m c 3 t) (iblk m c 4 t) (iblk m c 5 t) (stepAt m c (t.val - 1) (Nat.lt_of_le_of_lt (Nat.sub_le _ _) t.isLt)).2) := by
  obtain ⟨n, hn⟩ := t
  cases n with
  | zero => exact absurd h11 (by show ¬0 % 12 = 11; decide)
  | succ n =>
    have h0 : ¬(n + 1) % 12 = 0 := fun h => by have := h11; dsimp only at this; omega
    have h8' : ¬(n + 1) % 12 < 8 := fun h => by have := h11; dsimp only at this; omega
    exact (dif_neg h0).trans ((dif_neg h8').trans ((dif_pos h11).trans rfl))

/-! ## The region's resource between points -/

/-- Before point `n`: at the start the accumulator at anything; afterwards at what point `n - 1` left. -/
def regionAt (c : Dev nD) : (n : ℕ) → n ≤ cfg0.N → sProp 𝕄
  | 0, _ => Pipeline.ΦA spec0 c
  | n + 1, hn => iprop(iprop(owns (c : Thread nD τ) accM fullShare ((stepAt m c n hn).2)) ∗ (∃ r, prngReg c r))

theorem regionAt_zero (c : Dev nD) (n : ℕ) (h : n ≤ cfg0.N) (hz : n = 0) : regionAt m c n h = Pipeline.ΦA spec0 c := by
  subst hz; rfl

theorem regionAt_succ (c : Dev nD) (n : ℕ) (hn : n < cfg0.N) :
    regionAt m c (n + 1) hn = iprop(iprop(owns (c : Thread nD τ) accM fullShare ((stepAt m c n hn).2)) ∗ (∃ r, prngReg c r)) := rfl

theorem regionAt_pos (c : Dev nD) (n : ℕ) (h : n ≤ cfg0.N) (hz : n ≠ 0) :
    regionAt m c n h = iprop(iprop(owns (c : Thread nD τ) accM fullShare ((stepAt m c (n - 1) (by omega)).2)) ∗ (∃ r, prngReg c r)) := by
  cases n with
  | zero => exact absurd rfl hz
  | succ n => rfl

/-! ## The proof data -/

/-- On core `c`: the arrays as the region finds them; after the body at point `t` each input's buffer at its block
    and the output's at `stepAt`; the resource `regionAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stepAt m c t.val t.isLt).1
  Φ t := regionAt m c t.val (Nat.le_of_lt_succ t.isLt)
  q _ := fullShare
  owed _ := 0

theorem A_eq (c : Dev nD) (w : Fin cfg0.W) : (dats m 0 c).A w = V m c (Pipeline.arrRef spec0 w) := by
  dsimp only [dats]

theorem region_castSucc (c : Dev nD) (t : Fin cfg0.N) :
    (dats m 0 c).Φ t.castSucc = regionAt m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (stepAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- An input's buffer is handed back at its block. -/
theorem leaves_in (c : Dev nD) (t : Fin cfg0.N) (w : Fin cfg0.W) (hw : cfg0.idle w (grid0.coords t) = false) :
    (dats m 0 c).leavesExact w t = owns (c : Thread nD τ) ((cfg0.win w).stage (cfg0.slots t w)) fullShare ((dats m 0 c).after w t) := by
  unfold Dat.leavesExact; rw [hw]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

set_option maxHeartbeats 8000000 in
/-- The body at any point: the inputs' buffers hold their blocks; t mod 12 says which case the point is in; the
    resource hands the body the accumulator at what the point before left (at anything at the very first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = regionAt m c (t.val + 1) t.isLt from rfl, regionAt_succ]
  rw [leaves_in m c t 0 rfl, leaves_in m c t 1 rfl, leaves_in m c t 2 rfl, leaves_in m c t 3 rfl, leaves_in m c t 4 rfl,
    leaves_in m c t 5 rfl, after_0, after_1, after_2, after_3, after_4, after_5]
  have hN : t.val < 192 := lt_of_lt_of_eq t.isLt (show cfg0.N = 192 from N_0)
  by_cases h0 : t.val % 12 = 0
  · rw [Dat.leavesExact_idle (dats m 0 c) 6 t (outIdle t (by omega)) (outNoFlush t (by omega))]
    rw [stepAt_A m c t h0]
    unfold accA; (try dsimp only)
    by_cases hz : t.val = 0
    · rw [region_castSucc m c t, regionAt_zero m c _ _ hz, regionRes_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runA c t h0 _ _ _ _ _ _ _ _ _ _ _ _ _ _ _ _ (iblk m c 0 t) (iblk m c 1 t) (iblk m c 2 t) (iblk m c 3 t) (iblk m c 4 t) (iblk m c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hg]
      · isplitl [HS]
        · unfold owns; iexists _; isplitr
          swap; · iexact HS
          ipureintro; exact View.read_writes_of_cover _ _ _ _ _ (accCoverA c t h0 _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [region_castSucc m c t, regionAt_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runA c t h0 _ _ _ _ _ _ _ _ _ _ _ _ _ _ _ _ (iblk m c 0 t) (iblk m c 1 t) (iblk m c 2 t) (iblk m c 3 t) (iblk m c 4 t) (iblk m c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [HS Hg]
      · isplitl [HS]
        · unfold owns; iexists _; isplitr
          swap; · iexact HS
          ipureintro; exact View.read_writes_of_cover _ _ _ _ _ (accCoverA c t h0 _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h8 : t.val % 12 < 8
    · rw [Dat.leavesExact_idle (dats m 0 c) 6 t (outIdle t (by omega)) (outNoFlush t (by omega))]
      rw [stepAt_B m c t h0 h8]
      unfold accB; (try dsimp only)
      rw [region_castSucc m c t, regionAt_pos m c _ _ hz]
      · iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((runB c t h0 h8 _ _ _ _ _ _ _ _ _ _ _ _ _ _ _ _ (iblk m c 0 t) (iblk m c 1 t) (iblk m c 2 t) (iblk m c 3 t) (iblk m c 4 t) (iblk m c 5 t) _).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, ⟨%es, HS⟩⟩
        isplitl [HS Hg]
        · isplitl [HS]
          · unfold owns; iexists _; isplitr
            swap; · iexact HS
            ipureintro; exact View.read_writes_of_cover _ _ _ _ _ (accCoverB c t h0 h8 _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · by_cases h11 : t.val % 12 = 11
      · rw [leaves_in m c t 6 (outLive t h11), after_6]
        rw [stepAt_D m c t h11]
        unfold outD accD; (try dsimp only)
        rw [region_castSucc m c t, regionAt_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((runD c t h11 _ _ _ _ _ _ _ _ _ _ _ _ _ _ _ _ (iblk m c 0 t) (iblk m c 1 t) (iblk m c 2 t) (iblk m c 3 t) (iblk m c 4 t) (iblk m c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS]; · iexact HS
        iintro ⟨H0, H1, H2, H3, H4, H5, ⟨%e6, H6⟩, ⟨%es, HS⟩⟩
        isplitl [HS Hg]
        · isplitl [HS]
          · unfold owns; iexists _; isplitr
            swap; · iexact HS
            ipureintro; exact View.read_writes_of_cover _ _ _ _ _ (accCoverD c t h11 _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (outCoverD c t h11 _ _ _ _ _ _ _ _ _ _ _ _ _ _ _ _ _ _ _ _ _ _ _)
      · rw [Dat.leavesExact_idle (dats m 0 c) 6 t (outIdle t h11) (outNoFlush t h11)]
        rw [stepAt_C m c t (Nat.le_of_not_lt h8) h11]
        unfold accC; (try dsimp only)
        rw [region_castSucc m c t, regionAt_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((runC c t (Nat.le_of_not_lt h8) h11 _ _ _ _ _ _ _ _ _ _ _ _ _ _ _ _ (iblk m c 0 t) (iblk m c 1 t) (iblk m c 2 t) (iblk m c 3 t) (iblk m c 4 t) (iblk m c 5 t) _).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, ⟨%es, HS⟩⟩
        isplitl [HS Hg]
        · isplitl [HS]
          · unfold owns; iexists _; isplitr
            swap; · iexact HS
            ipureintro; exact View.read_writes_of_cover _ _ _ _ _ (accCoverC c t (Nat.le_of_not_lt h8) h11 _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The body's obligation, at every point. -/
theorem body_obligation (c : Dev nD) : BodyObligation (dats (F := F) m 0 c) (defs₀ (F := F)) Variants.none () Set.univ := fun t => by
  rw [bigSep_W0, bigSep_W0]
  exact sound_body m c t

theorem region_in (c : Dev nD) : Pipeline.ΦA spec0 c ⊢ (dats m 0 c).Φ 0 := by
  rw [show (dats m 0 c).Φ 0 = regionAt m c 0 (Nat.zero_le _) from rfl, regionAt_zero m c 0 _ rfl]
  try exact Idealize.SL.BI.Entails.refl _

/-- After the last point the accumulator's contents are forgotten. -/
theorem region_out (c : Dev nD) : (dats m 0 c).Φ (Fin.last cfg0.N) ⊢ Pipeline.ΦA spec0 c := by
  rw [show (dats m 0 c).Φ (Fin.last cfg0.N) = regionAt m c (Fin.last cfg0.N).val (Nat.le_of_lt_succ (Fin.last cfg0.N).isLt) from rfl,
    regionAt_pos m c _ _ (by rw [Fin.val_last]; have : cfg0.N = 192 := N_0; omega), regionRes_eq]
  iintro ⟨HS, Hg⟩
  isplitl [HS]
  · iexists _; iexact HS
  iexact Hg

/-! ## The run and the frame -/

set_option backward.isDefEq.respectTransparency.types false in
/-- Every weakly fair execution of the program terminates, and in every final state each array of the pipeline holds
    what the proof data computes and every other unscoped buffer what the host lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := region_in m) (hout := region_out m)

/-- The program runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Acc

end
-- ==== Proof.LibReadBack.lean ====
/-
  Reading back what stores through unit-stride rectangles leave in a buffer.

  A buffer is read either whole (the rectangle at zero offsets of the buffer's own sizes) or one tile at a time (a
  rectangle of fixed sizes at some offsets). The lemmas here say, for each of the two:
    * a load of a whole memref held at contents X reads X;
    * after ONE store, a load through the rectangle stored through reads the stored payload, however the (equal)
      offsets of the two rectangles are spelt;
    * after one store, a load through a rectangle that is clear of the stored one along some axis reads what was
      there before.
  All are generic in the shape, the element type and the values.
-/
import Idealize.ShloMosaic.Lib.Pipeline.Value
import Idealize.ShloMosaic.Lib.Pipeline.Frame
import Idealize.ShloMosaic.Lib.WritesUnit

noncomputable section

namespace ReadBack

open Idealize.ShloMosaic

variable {sig : RefSig} {κ : Kind} {sp : Space} {S : Shape} {e : EltTy} {Val : EltTy → Type}

/-- The zero offsets of a rank-2 rectangle, spelt as a literal vector. -/
theorem zero2 : (![0, 0] : Fin 2 → ℕ) = fun _ => 0 := by
  funext a; fin_cases a <;> rfl

/-- A load of the whole of a whole memref held at contents X reads X. -/
theorem readAt_whole_unread {m : Memref sig κ sp S e} (h : m.IsWhole) {off : Fin S.rank → ℕ} (hz : off = fun _ => 0)
    (inb : ∀ a, off a + S.size a ≤ S.size a) (X : S.Idx → Val e) :
    m.view.readAt Val (Rect.unit off S.size inb).toLoadRect (h.unread X) = X := by
  rw [View.readAt_eq_ld, h.read_unread, View.ld_unit_zero hz]

/-- What a buffer reads after ONE store of the whole of it: the payload, whatever it held. -/
theorem read_writes_whole [∀ e, Nonempty (Val e)] (v : View sig κ sp S e) (f : v.ty.Contents Val) {off : Fin S.rank → ℕ}
    (hz : off = fun _ => 0) (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero hz inb y⟩),
    View.canon_unit_zero hz]

/-- A tile read back through the rectangle it was stored through (the two offsets equal, however spelt) is the
    stored payload. -/
theorem readCov_unit_same [∀ e, Nonempty (Val e)] (v : View sig κ sp S e) {off off' size : Fin S.rank → ℕ}
    (inb : ∀ a, off a + size a ≤ S.size a) (inb' : ∀ a, off' a + size a ≤ S.size a) (heq : off = off')
    (w : (Rect.unit off size inb).shape.Idx → Val e) :
    v.readCov [(⟨Rect.unit off size inb, w⟩ : View.Piece Val S e)] (Rect.unit off' size inb').toLoadRect = w := by
  subst heq
  rw [View.readCov_eq_canon v _ _ (fun j => ⟨_, List.mem_singleton_self _, LoadRect.idx_mem _ j⟩)]
  funext j
  exact View.canon_cons_emb (Rect.unit off size inb) w [] j

/-- The tile of contents X at given offsets: X along the rectangle. Equal offsets give equal tiles. -/
theorem ld_congr_off {off off' size : Fin S.rank → ℕ} (inb : ∀ a, off a + size a ≤ S.size a)
    (inb' : ∀ a, off' a + size a ≤ S.size a) (heq : off = off') (X : S.Idx → Val e) :
    View.ld X (Rect.unit off size inb) = View.ld X (Rect.unit off' size inb') := by
  subst heq; rfl

/-- After one store through a tile's rectangle, that tile of the buffer is the payload. -/
theorem ld_read_writes_same (v : View sig κ sp S e) (f : v.ty.Contents Val) {off off' size : Fin S.rank → ℕ}
    (inb : ∀ a, off a + size a ≤ S.size a) (inb' : ∀ a, off' a + size a ≤ S.size a) (heq : off = off')
    (w : (Rect.unit off size inb).shape.Idx → Val e) :
    View.ld (v.read Val (v.writes Val f [(⟨Rect.unit off size inb, w⟩ : View.Piece Val S e)])) (Rect.unit off' size inb') = w := by
  subst heq
  funext j
  exact View.read_writes_cons_emb v f (Rect.unit off size inb) w [] j

/-- After one store through a tile's rectangle, a tile clear of it along axis a is what it was. -/
theorem ld_read_writes_other (v : View sig κ sp S e) (f : v.ty.Contents Val) {off off' size size' : Fin S.rank → ℕ}
    (inb : ∀ a, off a + size a ≤ S.size a) (inb' : ∀ a, off' a + size' a ≤ S.size a)
    (w : (Rect.unit off size inb).shape.Idx → Val e) (a : Fin S.rank)
    (ha : off' a + size' a ≤ off a ∨ off a + size a ≤ off' a) :
    View.ld (v.read Val (v.writes Val f [(⟨Rect.unit off size inb, w⟩ : View.Piece Val S e)])) (Rect.unit off' size' inb')
      = View.ld (v.read Val f) (Rect.unit off' size' inb') := by
  funext j
  show v.read Val (v.writes Val f [(⟨Rect.unit off size inb, w⟩ : View.Piece Val S e)]) ((Rect.unit off' size' inb').emb j) = _
  rw [View.read_writes_cons_unit_of_not_mem v f inb w [] _ rfl a (by
    have hj : ((Rect.unit off' size' inb').emb j a : ℕ) = off' a + 1 * (j a).val := rfl
    have hlt := (j a).isLt
    have hsz : (Rect.unit off' size' inb').shape.size a = size' a := rfl
    rw [hj]; omega)]
  rfl

end ReadBack

end
-- ==== Proof.KiPieces.lean ====
/-
  What each case leaves, as the body's own arithmetic.

  The pieces a case's run stored are one whole-tile store (after, at the first step, the clearing store), whose payload
  is the body's arithmetic of values the body loaded: whole-buffer loads of the input blocks, which read the blocks,
  and a load of the accumulator, which reads what the point before left (or, at the first step, the zeros just stored).
  So: at the first step the accumulator ends at  zeros + first slab;  at a later step at  previous + slab;  and at the
  last step the output tile is the finishing arithmetic of the accumulator just stored, the noise block and the row.
-/
import proofs.«122913_j10041633538618_2_alg».proof.Proof.KiFrame
import proofs.«122913_j10041633538618_2_alg».proof.Proof.LibReadBack

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem accA_eq (c : Dev nD) (t : Fin cfg0.N) (hk : t.val % 12 = 0) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) :
    accA c t hk arg3 harg3 arg4 harg4 arg5 harg5 arg6 harg6 arg7 harg7 arg8 harg8 arg9 harg9 arg10 harg10 x0 x1 x2 x3 x4 x5 = k0_pay2 (k0_pay1 (F := F)) x0 x1 := by
  unfold accA
  rw [View.read_writes_eq_canon _ _ _ (accCoverA c t hk arg3 harg3 arg4 harg4 arg5 harg5 arg6 harg6 arg7 harg7 arg8 harg8 arg9 harg9 arg10 harg10 x0 x1 x2 x3 x4 x5)]
  unfold runA
  dsimp only
  try sl_unfold_words
  rw [View.canon_cons_unit_zero ReadBack.zero2, View.readCov_unit_zero _ ReadBack.zero2, ReadBack.readAt_whole_unread harg3 ReadBack.zero2, ReadBack.readAt_whole_unread harg4 ReadBack.zero2]

theorem accB_eq (c : Dev nD) (t : Fin cfg0.N) (h0 : t.val % 12 ≠ 0) (h8 : t.val % 12 < 8) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) :
    accB c t h0 h8 arg3 harg3 arg4 harg4 arg5 harg5 arg6 harg6 arg7 harg7 arg8 harg8 arg9 harg9 arg10 harg10 x0 x1 x2 x3 x4 x5 xs = k0_pay2 xs x0 x1 := by
  unfold accB
  rw [View.read_writes_eq_canon _ _ _ (accCoverB c t h0 h8 arg3 harg3 arg4 harg4 arg5 harg5 arg6 harg6 arg7 harg7 arg8 harg8 arg9 harg9 arg10 harg10 x0 x1 x2 x3 x4 x5 xs)]
  unfold runB
  dsimp only
  try sl_unfold_words
  rw [View.canon_unit_zero ReadBack.zero2, ReadBack.readAt_whole_unread harg10 ReadBack.zero2, ReadBack.readAt_whole_unread harg3 ReadBack.zero2, ReadBack.readAt_whole_unread harg4 ReadBack.zero2]

theorem accC_eq (c : Dev nD) (t : Fin cfg0.N) (h8 : 8 ≤ t.val % 12) (h11 : t.val % 12 ≠ 11) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) :
    accC c t h8 h11 arg3 harg3 arg4 harg4 arg5 harg5 arg6 harg6 arg7 harg7 arg8 harg8 arg9 harg9 arg10 harg10 x0 x1 x2 x3 x4 x5 xs = k0_pay3 xs x2 x3 := by
  unfold accC
  rw [View.read_writes_eq_canon _ _ _ (accCoverC c t h8 h11 arg3 harg3 arg4 harg4 arg5 harg5 arg6 harg6 arg7 harg7 arg8 harg8 arg9 harg9 arg10 harg10 x0 x1 x2 x3 x4 x5 xs)]
  unfold runC
  dsimp only
  try sl_unfold_words
  rw [View.canon_unit_zero ReadBack.zero2, ReadBack.readAt_whole_unread harg10 ReadBack.zero2, ReadBack.readAt_whole_unread harg5 ReadBack.zero2, ReadBack.readAt_whole_unread harg6 ReadBack.zero2]

theorem accD_eq (c : Dev nD) (t : Fin cfg0.N) (h11 : t.val % 12 = 11) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) :
    accD c t h11 arg3 harg3 arg4 harg4 arg5 harg5 arg6 harg6 arg7 harg7 arg8 harg8 arg9 harg9 arg10 harg10 x0 x1 x2 x3 x4 x5 xs = k0_pay3 xs x2 x3 := by
  unfold accD
  rw [View.read_writes_eq_canon _ _ _ (accCoverD c t h11 arg3 harg3 arg4 harg4 arg5 harg5 arg6 harg6 arg7 harg7 arg8 harg8 arg9 harg9 arg10 harg10 x0 x1 x2 x3 x4 x5 xs)]
  unfold runD
  dsimp only
  try sl_unfold_words
  rw [View.canon_unit_zero ReadBack.zero2, ReadBack.readAt_whole_unread harg10 ReadBack.zero2, ReadBack.readAt_whole_unread harg5 ReadBack.zero2, ReadBack.readAt_whole_unread harg6 ReadBack.zero2]

theorem outD_eq (c : Dev nD) (t : Fin cfg0.N) (h11 : t.val % 12 = 11) (arg3 : Memref sig .tc .vmem S2048x512 .bf16) (harg3 : arg3.IsWhole) (arg4 : Memref sig .tc .vmem S512x1024 .bf16) (harg4 : arg4.IsWhole) (arg5 : Memref sig .tc .vmem S2048x512 .bf16) (harg5 : arg5.IsWhole) (arg6 : Memref sig .tc .vmem S512x1024 .bf16) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole)
    (x0 : Vec F S2048x512 .bf16) (x1 : Vec F S512x1024 .bf16) (x2 : Vec F S2048x512 .bf16) (x3 : Vec F S512x1024 .bf16) (x4 : Vec F S2048x1024 .f32) (x5 : Vec F S1x1024 .f32) (xs : Vec F S2048x1024 .f32) :
    outD c t h11 arg3 harg3 arg4 harg4 arg5 harg5 arg6 harg6 arg7 harg7 arg8 harg8 arg9 harg9 arg10 harg10 x0 x1 x2 x3 x4 x5 xs = k0_pay4 (k0_pay3 xs x2 x3) x4 x5 := by
  unfold outD
  rw [View.read_writes_eq_canon _ _ _ (outCoverD c t h11 arg3 harg3 arg4 harg4 arg5 harg5 arg6 harg6 arg7 harg7 arg8 harg8 arg9 harg9 arg10 harg10 x0 x1 x2 x3 x4 x5 xs)]
  unfold runD
  dsimp only
  try sl_unfold_words
  rw [View.canon_unit_zero ReadBack.zero2, View.readCov_unit_zero _ ReadBack.zero2, ReadBack.readAt_whole_unread harg10 ReadBack.zero2, ReadBack.readAt_whole_unread harg5 ReadBack.zero2, ReadBack.readAt_whole_unread harg6 ReadBack.zero2, ReadBack.readAt_whole_unread harg7 ReadBack.zero2, ReadBack.readAt_whole_unread harg8 ReadBack.zero2]

end Cert.KernelIdeal.Acc

end
-- ==== Proof.KiBlocks.lean ====
/-
  Which entries of the arrays a point's blocks are.

  Point t of the 4 × 4 × 12 grid has row-block t / 48, column-block (t / 12) mod 4 and step k = t mod 12. The index maps
  as printed are decided over the 192 points in that closed form: the first product's operands sit at slab k while
  k < 8, the second product's at slab k − 8 while k ≥ 8 (where a product is not the active one its operands' slab is
  clamped, and nothing reads it); the noise block, the per-feature row and the output tile depend on the row- and
  column-block alone. A block's entry y is then the array's entry at  block index × block size + y  on each axis.
-/
import proofs.«122913_j10041633538618_2_alg».proof.Proof.KiPieces

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem idx_facts : ∀ t : Fin cfg0.N,
    win0_0.index t (0 : Fin 2) = t.val / 48 ∧ (t.val % 12 < 8 → win0_0.index t (1 : Fin 2) = t.val % 12)
    ∧ (t.val % 12 < 8 → win0_1.index t (0 : Fin 2) = t.val % 12) ∧ win0_1.index t (1 : Fin 2) = t.val / 12 % 4
    ∧ win0_2.index t (0 : Fin 2) = t.val / 48 ∧ (8 ≤ t.val % 12 → win0_2.index t (1 : Fin 2) = t.val % 12 - 8)
    ∧ (8 ≤ t.val % 12 → win0_3.index t (0 : Fin 2) = t.val % 12 - 8) ∧ win0_3.index t (1 : Fin 2) = t.val / 12 % 4
    ∧ win0_4.index t (0 : Fin 2) = t.val / 48 ∧ win0_4.index t (1 : Fin 2) = t.val / 12 % 4
    ∧ win0_5.index t (0 : Fin 2) = 0 ∧ win0_5.index t (1 : Fin 2) = t.val / 12 % 4
    ∧ win0_6.index t (0 : Fin 2) = t.val / 48 ∧ win0_6.index t (1 : Fin 2) = t.val / 12 % 4 :=
  (by decide +kernel : ∀ t : Fin grid0.N, _)

theorem blk0_at (c : Dev nD) (t : Fin cfg0.N) (hk : t.val % 12 < 8) (y : S2048x512.Idx) (i : S8192x4096.Idx)
    (h0 : (i 0).val = t.val / 48 * 2048 + (y 0).val) (h1 : (i 1).val = t.val % 12 * 512 + (y 1).val) :
    iblk m c 0 t y = V m c main_v1 i := by
  unfold iblk
  show V m c main_v1 (((cfg0.win 0).blk t).view.emb y) = V m c main_v1 i
  refine congrArg _ (funext fun a => Fin.ext ?_)
  have e := idx_facts t
  match a with
  | ⟨0, _⟩ => show win0_0.index t (0 : Fin 2) * 2048 + 1 * (y 0).val = (i 0).val; omega
  | ⟨1, _⟩ => show win0_0.index t (1 : Fin 2) * 512 + 1 * (y 1).val = (i 1).val; omega

theorem blk1_at (c : Dev nD) (t : Fin cfg0.N) (hk : t.val % 12 < 8) (y : S512x1024.Idx) (i : S4096x4096.Idx)
    (h0 : (i 0).val = t.val % 12 * 512 + (y 0).val) (h1 : (i 1).val = t.val / 12 % 4 * 1024 + (y 1).val) :
    iblk m c 1 t y = V m c main_v8 i := by
  unfold iblk
  show V m c main_v8 (((cfg0.win 1).blk t).view.emb y) = V m c main_v8 i
  refine congrArg _ (funext fun a => Fin.ext ?_)
  have e := idx_facts t
  match a with
  | ⟨0, _⟩ => show win0_1.index t (0 : Fin 2) * 512 + 1 * (y 0).val = (i 0).val; omega
  | ⟨1, _⟩ => show win0_1.index t (1 : Fin 2) * 1024 + 1 * (y 1).val = (i 1).val; omega

theorem blk2_at (c : Dev nD) (t : Fin cfg0.N) (hk : 8 ≤ t.val % 12) (y : S2048x512.Idx) (i : S8192x2048.Idx)
    (h0 : (i 0).val = t.val / 48 * 2048 + (y 0).val) (h1 : (i 1).val = (t.val % 12 - 8) * 512 + (y 1).val) :
    iblk m c 2 t y = V m c main_v3 i := by
  unfold iblk
  show V m c main_v3 (((cfg0.win 2).blk t).view.emb y) = V m c main_v3 i
  refine congrArg _ (funext fun a => Fin.ext ?_)
  have e := idx_facts t
  match a with
  | ⟨0, _⟩ => show win0_2.index t (0 : Fin 2) * 2048 + 1 * (y 0).val = (i 0).val; omega
  | ⟨1, _⟩ => show win0_2.index t (1 : Fin 2) * 512 + 1 * (y 1).val = (i 1).val; omega

theorem blk3_at (c : Dev nD) (t : Fin cfg0.N) (hk : 8 ≤ t.val % 12) (y : S512x1024.Idx) (i : S2048x4096.Idx)
    (h0 : (i 0).val = (t.val % 12 - 8) * 512 + (y 0).val) (h1 : (i 1).val = t.val / 12 % 4 * 1024 + (y 1).val) :
    iblk m c 3 t y = V m c main_v11 i := by
  unfold iblk
  show V m c main_v11 (((cfg0.win 3).blk t).view.emb y) = V m c main_v11 i
  refine congrArg _ (funext fun a => Fin.ext ?_)
  have e := idx_facts t
  match a with
  | ⟨0, _⟩ => show win0_3.index t (0 : Fin 2) * 512 + 1 * (y 0).val = (i 0).val; omega
  | ⟨1, _⟩ => show win0_3.index t (1 : Fin 2) * 1024 + 1 * (y 1).val = (i 1).val; omega

theorem blk4_at (c : Dev nD) (t : Fin cfg0.N)  (y : S2048x1024.Idx) (i : S8192x4096.Idx)
    (h0 : (i 0).val = t.val / 48 * 2048 + (y 0).val) (h1 : (i 1).val = t.val / 12 % 4 * 1024 + (y 1).val) :
    iblk m c 4 t y = V m c main_v4 i := by
  unfold iblk
  show V m c main_v4 (((cfg0.win 4).blk t).view.emb y) = V m c main_v4 i
  refine congrArg _ (funext fun a => Fin.ext ?_)
  have e := idx_facts t
  match a with
  | ⟨0, _⟩ => show win0_4.index t (0 : Fin 2) * 2048 + 1 * (y 0).val = (i 0).val; omega
  | ⟨1, _⟩ => show win0_4.index t (1 : Fin 2) * 1024 + 1 * (y 1).val = (i 1).val; omega

theorem blk5_at (c : Dev nD) (t : Fin cfg0.N)  (y : S1x1024.Idx) (i : S1x4096.Idx)
    (h0 : (i 0).val = 0 * 1 + (y 0).val) (h1 : (i 1).val = t.val / 12 % 4 * 1024 + (y 1).val) :
    iblk m c 5 t y = V m c main_v25 i := by
  unfold iblk
  show V m c main_v25 (((cfg0.win 5).blk t).view.emb y) = V m c main_v25 i
  refine congrArg _ (funext fun a => Fin.ext ?_)
  have e := idx_facts t
  match a with
  | ⟨0, _⟩ => show win0_5.index t (0 : Fin 2) * 1 + 1 * (y 0).val = (i 0).val; omega
  | ⟨1, _⟩ => show win0_5.index t (1 : Fin 2) * 1024 + 1 * (y 1).val = (i 1).val; omega

end Cert.KernelIdeal.Acc

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.Formula.lean ====
/-
  The two arrangements of one computation.

  Ten real arrays: x1[4,2048,4096], x2[4,2048,2048], noise[4,2048,4096], W1[4096,4096], b1[4096], W2[2048,4096],
  b2[4096], b[4096], bucket[4096], prev[1,1,4096]; four constants h (one half), t (one tenth, rounded), g (nine tenths,
  rounded) and u (one), kept as their binary words. At the output index (a, s, o):

  * the FUSED arrangement scales the weights first and gathers every per-feature term into one row,
        u · tanh( ((Σ_d x1(a,s,d)·(W1(d,o)·h) + Σ_d x2(a,s,d)·(W2(d,o)·h)) + noise(a,s,o)·t)
                  + ((((g·bucket(o) + h·b1(o)) + h·b2(o)) + b(o)) − t·|prev(0,0,o)|) );
  * the LAYERED arrangement projects, adds the biases, halves the sum, and then adds the rest,
        u · tanh( (g·bucket(o) + ((h·((Σ_d x1(a,s,d)·W1(d,o) + b1(o)) + (Σ_d x2(a,s,d)·W2(d,o) + b2(o))) + b(o))
                  + noise(a,s,o)·t)) − t·|prev(0,0,o)| ).

  On the extended reals the two agree when every entry is a real number: the step between them is the distributive law
  (h over the sums and over the two biases) and a regrouping of a sum of reals, both of which fail at ±∞.
  |p| is max(p, −p). Nothing here depends on a program.
-/
import Idealize.ShloMosaic.PureOps.Ideal
import Idealize.ShloMosaic.Lib.ValueIdx

noncomputable section

open scoped BigOperators

namespace Cert.Formula

open Idealize.ShloMosaic Idealize.ShloMosaic.ValueIdx

abbrev SX1 : Shape := ⟨3, ![4, 2048, 4096]⟩
abbrev SX2 : Shape := ⟨3, ![4, 2048, 2048]⟩
abbrev SW1 : Shape := ⟨2, ![4096, 4096]⟩
abbrev SW2 : Shape := ⟨2, ![2048, 4096]⟩
abbrev SV : Shape := ⟨1, ![4096]⟩
abbrev SP : Shape := ⟨3, ![1, 1, 4096]⟩

/-- One half, as its binary word. -/
def cHalf : EReal := Ideal.ofBits .f32 0x3F000000#32
/-- One tenth rounded to binary32, as its word. -/
def cTenth : EReal := Ideal.ofBits .f32 0x3DCCCCCD#32
/-- Nine tenths rounded to binary32, as its word. -/
def cDecay : EReal := Ideal.ofBits .f32 0x3F666666#32
/-- One, as its word. -/
def cOne : EReal := Ideal.ofBits .f32 0x3F800000#32

/-- The per-feature row the fused arrangement gathers: (((g·bucket + h·b1) + h·b2) + b) − t·|prev|. -/
def featRow (b1 b2 b bucket : SV.Idx → EReal) (prev : SP.Idx → EReal) (o : Fin 4096) : EReal :=
  ((((cDecay * bucket (ix1 o) + cHalf * b1 (ix1 o)) + cHalf * b2 (ix1 o)) + b (ix1 o))
    - cTenth * max (prev (ix3 0 0 o)) (-(prev (ix3 0 0 o))))

/-- The two projections with pre-scaled weights, added. -/
def fusedAcc (x1 : SX1.Idx → EReal) (x2 : SX2.Idx → EReal) (W1 : SW1.Idx → EReal) (W2 : SW2.Idx → EReal)
    (a : Fin 4) (s : Fin 2048) (o : Fin 4096) : EReal :=
  (∑ d : Fin 4096, x1 (ix3 a s d) * (W1 (ix2 d o) * cHalf)) + (∑ d : Fin 2048, x2 (ix3 a s d) * (W2 (ix2 d o) * cHalf))

/-- The fused arrangement at (a, s, o). -/
def fused (x1 : SX1.Idx → EReal) (x2 : SX2.Idx → EReal) (noise : SX1.Idx → EReal) (W1 : SW1.Idx → EReal)
    (b1 : SV.Idx → EReal) (W2 : SW2.Idx → EReal) (b2 b bucket : SV.Idx → EReal) (prev : SP.Idx → EReal)
    (a : Fin 4) (s : Fin 2048) (o : Fin 4096) : EReal :=
  cOne * Ideal.tanh ((fusedAcc x1 x2 W1 W2 a s o + noise (ix3 a s o) * cTenth) + featRow b1 b2 b bucket prev o)

/-- The layered arrangement at (a, s, o). -/
def layered (x1 : SX1.Idx → EReal) (x2 : SX2.Idx → EReal) (noise : SX1.Idx → EReal) (W1 : SW1.Idx → EReal)
    (b1 : SV.Idx → EReal) (W2 : SW2.Idx → EReal) (b2 b bucket : SV.Idx → EReal) (prev : SP.Idx → EReal)
    (a : Fin 4) (s : Fin 2048) (o : Fin 4096) : EReal :=
  cOne * Ideal.tanh ((cDecay * bucket (ix1 o)
      + ((cHalf * (((∑ d : Fin 4096, x1 (ix3 a s d) * W1 (ix2 d o)) + b1 (ix1 o))
                    + ((∑ d : Fin 2048, x2 (ix3 a s d) * W2 (ix2 d o)) + b2 (ix1 o))) + b (ix1 o))
          + noise (ix3 a s o) * cTenth))
    - cTenth * max (prev (ix3 0 0 o)) (-(prev (ix3 0 0 o))))

end Cert.Formula

end
-- ==== Proof.KiPay.lean ====
/-
  The four values the kernel's body stores, read at an index.

  The body works on blocks: a [2048, 1024] accumulator, [2048, 512] and [512, 1024] operand blocks of the two
  projections, and a [1, 1024] row. At the entry (r, q) of the accumulator block:
  * the first store writes 0 (the accumulator is cleared);
  * the second and the third add one block of a projection: acc(r, q) + Σ_l x(r, l) · w(l, q), the matrix unit's product
    of a [2048, 512] by a [512, 1024] block into a zero accumulator being the plain sum over the 512 contracted entries;
  * the fourth is the epilogue: one · tanh((acc(r, q) + noise(r, q) · tenth) + row(0, q)), the row block broadcast over
    the 2048 rows.
  Casts of a block to its own shape are the identity.
-/
import proofs.«122913_j10041633538618_2_alg».proof.Proof.Gen.KernelIdeal.Skeleton
import proofs.«122913_j10041633538618_2_alg».proof.Proof.LibPlainDot
import proofs.«122913_j10041633538618_2_alg».proof.Proof.Formula
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx

/-- The body's product is the plain product [2048, 512] · [512, 1024] → [2048, 1024]. -/
theorem dot_eq_plain : dot_S2048x512_S512x1024_S2048x1024_1_0_0_1_n_n = DotDims.plain 2048 512 1024 :=
  Cert.Lib.PlainDot.eq_plain _ rfl rfl rfl rfl rfl rfl

/-- The body's product into the zero accumulator at (r, q): the sum over the 512 contracted entries. -/
theorem matmul_apply (x : FVec Ideal S2048x512 .bf16) (w : FVec Ideal S512x1024 .bf16) (r : Fin 2048) (q : Fin 1024) :
    matmul dot_S2048x512_S512x1024_S2048x1024_1_0_0_1_n_n none x w (constant (F := Ideal) S2048x1024 .f32 0x00000000#32) (ix2 r q)
      = ∑ l : Fin 512, x (ix2 r l) * w (ix2 l q) := by
  rw [dot_eq_plain]
  exact Cert.Lib.PlainDot.matmul_zero_plain_apply none x w (ix2 r q)

/-- The first store clears the accumulator. -/
theorem pay1_apply (r : Fin 2048) (q : Fin 1024) : k0_pay1 (F := Ideal) (ix2 r q) = 0 := by
  unfold k0_pay1
  refine (congrFun (shapeCast_self _ _) (ix2 r q)).trans ?_
  exact Ideal.ofBits_zero_f32

/-- The second store adds one block of the first projection to the accumulator. -/
theorem pay2_apply (v12 : Vec Ideal S2048x1024 .f32) (v13 : Vec Ideal S2048x512 .bf16) (v15 : Vec Ideal S512x1024 .bf16)
    (r : Fin 2048) (q : Fin 1024) :
    k0_pay2 (F := Ideal) v12 v13 v15 (ix2 r q) = v12 (ix2 r q) + ∑ l : Fin 512, v13 (ix2 r l) * v15 (ix2 l q) := by
  unfold k0_pay2
  refine (congrFun (shapeCast_self _ _) (ix2 r q)).trans ?_
  refine congrArg (fun z => v12 (ix2 r q) + z) ?_
  have e13 : shapeCast S2048x512 v13 shapeCasts_S2048x512_S2048x512 = v13 := shapeCast_self _ _
  have e15 : shapeCast S512x1024 v15 shapeCasts_S512x1024_S512x1024 = v15 := shapeCast_self _ _
  show matmul dot_S2048x512_S512x1024_S2048x1024_1_0_0_1_n_n none (shapeCast S2048x512 v13 shapeCasts_S2048x512_S2048x512)
    (shapeCast S512x1024 v15 shapeCasts_S512x1024_S512x1024) (constant (F := Ideal) S2048x1024 .f32 0x00000000#32) (ix2 r q) = _
  rw [e13, e15]
  exact matmul_apply v13 v15 r q

/-- The third store adds one block of the second projection to the accumulator. -/
theorem pay3_apply (v12 : Vec Ideal S2048x1024 .f32) (v13 : Vec Ideal S2048x512 .bf16) (v15 : Vec Ideal S512x1024 .bf16)
    (r : Fin 2048) (q : Fin 1024) :
    k0_pay3 (F := Ideal) v12 v13 v15 (ix2 r q) = v12 (ix2 r q) + ∑ l : Fin 512, v13 (ix2 r l) * v15 (ix2 l q) := by
  unfold k0_pay3
  refine (congrFun (shapeCast_self _ _) (ix2 r q)).trans ?_
  refine congrArg (fun z => v12 (ix2 r q) + z) ?_
  have e13 : shapeCast S2048x512 v13 shapeCasts_S2048x512_S2048x512 = v13 := shapeCast_self _ _
  have e15 : shapeCast S512x1024 v15 shapeCasts_S512x1024_S512x1024 = v15 := shapeCast_self _ _
  show matmul dot_S2048x512_S512x1024_S2048x1024_1_0_0_1_n_n none (shapeCast S2048x512 v13 shapeCasts_S2048x512_S2048x512)
    (shapeCast S512x1024 v15 shapeCasts_S512x1024_S512x1024) (constant (F := Ideal) S2048x1024 .f32 0x00000000#32) (ix2 r q) = _
  rw [e13, e15]
  exact matmul_apply v13 v15 r q

/-- The fourth store is the epilogue: one times the hyperbolic tangent of the accumulator plus a tenth of the noise plus
    the row block's entry. -/
theorem pay4_apply (v12 v13 : Vec Ideal S2048x1024 .f32) (v18 : Vec Ideal S1x1024 .f32) (r : Fin 2048) (q : Fin 1024) :
    k0_pay4 (F := Ideal) v12 v13 v18 (ix2 r q)
      = Cert.Formula.cOne * Ideal.tanh ((v12 (ix2 r q) + v13 (ix2 r q) * Cert.Formula.cTenth) + v18 (ix2 0 q)) := by
  unfold k0_pay4
  have e13 : shapeCast S2048x1024 v13 shapeCasts_S2048x1024_S2048x1024 = v13 := shapeCast_self _ _
  have e18 : shapeCast S1x1024 v18 shapeCasts_S1x1024_S1x1024 = v18 := shapeCast_self _ _
  have erow : broadcastTo S2048x1024 v18 broadcasts_S1x1024_S2048x1024 (ix2 r q) = v18 (ix2 (0 : Fin 1) q) :=
    broadcastTo_1b_ab_apply v18 broadcasts_S1x1024_S2048x1024 r q
  show Cert.Formula.cOne * Ideal.tanh ((v12 (ix2 r q) + shapeCast S2048x1024 v13 shapeCasts_S2048x1024_S2048x1024 (ix2 r q) * Cert.Formula.cTenth)
      + broadcastTo S2048x1024 (shapeCast S1x1024 v18 shapeCasts_S1x1024_S1x1024) broadcasts_S1x1024_S2048x1024 (ix2 r q)) = _
  rw [e13, e18, erow]

end Cert.KernelIdeal.Pay

end
-- ==== Proof.LibSumTiles.lean ====
/-
  A finite sum cut into consecutive tiles.

  A function f on the first N naturals is extended by zero to every natural; psum f n is the sum of the first n
  values. The partial sum over no rows is zero, the partial sum over all N rows is the sum over Fin N, and the
  partial sum grows by one tile of T consecutive rows at a time:  psum f (n + T) = psum f n + ∑ p < T, f (n + p).
  So a sum over Fin (T · k) accumulated tile by tile, first tile to last, is the whole sum. Only the commutative
  monoid laws of + are used; nothing here depends on a program.
-/
import Mathlib.Algebra.BigOperators.Fin
import Mathlib.Algebra.BigOperators.Intervals

open scoped BigOperators

namespace Cert.SumTiles

variable {β : Type*} [AddCommMonoid β] {N : ℕ}

/-- A function on the first N naturals, extended by zero. -/
def ext0 (f : Fin N → β) (n : ℕ) : β := if h : n < N then f ⟨n, h⟩ else 0

theorem ext0_of_lt (f : Fin N → β) (n : ℕ) (h : n < N) : ext0 f n = f ⟨n, h⟩ := dif_pos h

/-- The sum of the first n values of f (the values past N count as zero). -/
def psum (f : Fin N → β) (n : ℕ) : β := ∑ r ∈ Finset.range n, ext0 f r

/-- No rows: zero. -/
theorem psum_zero (f : Fin N → β) : psum f 0 = 0 := Finset.sum_range_zero _

/-- All N rows: the sum over Fin N. -/
theorem psum_full (f : Fin N → β) : psum f N = ∑ r : Fin N, f r := by
  unfold psum
  rw [← Fin.sum_univ_eq_sum_range (fun r => ext0 f r) N]
  exact Finset.sum_congr rfl fun r _ => ext0_of_lt f r.val r.isLt

/-- One more tile of T consecutive rows n, n + 1, …, n + T − 1, all below N. -/
theorem psum_add_tile (f : Fin N → β) (n T : ℕ) (h : n + T ≤ N) :
    psum f (n + T) = psum f n + ∑ p : Fin T, f ⟨n + p.val, by have := p.isLt; omega⟩ := by
  unfold psum
  rw [Finset.sum_range_add, ← Fin.sum_univ_eq_sum_range (fun p => ext0 f (n + p)) T]
  exact congrArg _ (Finset.sum_congr rfl fun p _ => ext0_of_lt f _ _)

/-- The first tile, from nothing: the zero in front is kept, as an accumulator started at zero has it. -/
theorem psum_first_tile (f : Fin N → β) (T : ℕ) (h : T ≤ N) :
    psum f T = 0 + ∑ p : Fin T, f ⟨p.val, by have := p.isLt; omega⟩ := by
  have e := psum_add_tile f 0 T (by omega)
  rw [psum_zero] at e
  simp only [Nat.zero_add] at e
  exact e

end Cert.SumTiles
-- ==== Proof.LibTileRange.lean ====
/-
  A sum over Fin N as a sum of J tiles of T consecutive terms, when T · J = N.

  With f extended by zero past N, the sum of the first J tiles — tile s holds the terms T·s, T·s + 1, …, T·s + T − 1 —
  is the partial sum of the first T·J terms (induction on J, one tile at a time), and for T · J = N that partial sum
  is the whole sum. Only the commutative monoid laws of + are used.
-/
import proofs.«122913_j10041633538618_2_alg».proof.Proof.LibSumTiles

open scoped BigOperators

namespace Cert.SumTiles

variable {β : Type*} [AddCommMonoid β] {N : ℕ}

/-- The first J tiles of T terms each add up to the partial sum of the first T · J terms. -/
theorem range_tiles (f : Fin N → β) (T : ℕ) : ∀ J : ℕ, T * J ≤ N →
    ∑ s ∈ Finset.range J, ∑ p : Fin T, ext0 f (T * s + p.val) = psum f (T * J)
  | 0, _ => by rw [Finset.sum_range_zero, Nat.mul_zero, psum_zero]
  | J + 1, h => by
    have hJ : T * J + T ≤ N := by rw [← Nat.mul_succ]; exact h
    rw [Finset.sum_range_succ, range_tiles f T J (le_trans (Nat.le_add_right _ _) hJ), Nat.mul_succ,
      psum_add_tile f (T * J) T hJ]
    exact congrArg _ (Finset.sum_congr rfl fun p _ => ext0_of_lt f _ _)

/-- J tiles of T terms that exhaust Fin N add up to the sum over Fin N. -/
theorem sum_tiles (f : Fin N → β) (T J : ℕ) (h : T * J = N) :
    ∑ s ∈ Finset.range J, ∑ p : Fin T, ext0 f (T * s + p.val) = ∑ r : Fin N, f r := by
  rw [range_tiles f T J (le_of_eq h), h, psum_full]

end Cert.SumTiles
-- ==== Proof.KiTile.lean ====
/-
  The accumulator in closed form.

  Fix a row R of the 8192 and a column O of the 4096, lying in the tile of row-block t / 48 and column-block
  (t / 12) mod 4 at the tile's entry (r, q). Write  p1(d) = X1(R, d) · W1'(d, O)  for the 4096 terms of the first product
  and  p2(d) = X2(R, d) · W2'(d, O)  for the 2048 terms of the second (X1, X2, W1', W2' the arrays the region finds).
  Step k of the tile adds one slab of 512 consecutive terms:  at k = 0 to zero, for k < 8 the terms 512k … 512k + 511 of
  p1, for k ≥ 8 the terms 512(k − 8) … of p2. So after step k < 8 the accumulator's entry is the partial sum of the first
  512(k + 1) terms of p1, and after step k ≥ 8 it is the whole first sum plus the partial sum of the first 512(k − 7)
  terms of p2: after step 11, the two whole sums. Only the commutative-monoid laws of + are used.
-/
import proofs.«122913_j10041633538618_2_alg».proof.Proof.KiBlocks
import proofs.«122913_j10041633538618_2_alg».proof.Proof.KiPay
import proofs.«122913_j10041633538618_2_alg».proof.Proof.LibTileRange

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.SumTiles Idealize.ShloMosaic.ValueIdx
open scoped BigOperators

variable (m : (ℓ : Loc nD τ sig) → Buf (Elt Ideal) ℓ)

/-- The four operands as the region finds them, as arrays of extended reals. -/
def arrX1 (c : Dev nD) : S8192x4096.Idx → EReal := V m c main_v1
def arrW1 (c : Dev nD) : S4096x4096.Idx → EReal := V m c main_v8
def arrX2 (c : Dev nD) : S8192x2048.Idx → EReal := V m c main_v3
def arrW2 (c : Dev nD) : S2048x4096.Idx → EReal := V m c main_v11
/-- The noise and the per-feature row as the region finds them. -/
def arrN (c : Dev nD) : S8192x4096.Idx → EReal := V m c main_v4
def arrRow (c : Dev nD) : S1x4096.Idx → EReal := V m c main_v25

/-- The terms of the first product at row R, column O. -/
def term1 (c : Dev nD) (R : Fin 8192) (O : Fin 4096) : Fin 4096 → EReal :=
  fun d => arrX1 m c (ix2 R d) * arrW1 m c (ix2 d O)
/-- The terms of the second product at row R, column O. -/
def term2 (c : Dev nD) (R : Fin 8192) (O : Fin 4096) : Fin 2048 → EReal :=
  fun d => arrX2 m c (ix2 R d) * arrW2 m c (ix2 d O)

/-- A first step: zero plus the first slab of the first product. -/
theorem step_clear (c : Dev nD) (t : Fin cfg0.N) (hk : t.val % 12 = 0) (R : Fin 8192) (O : Fin 4096) (r : Fin 2048) (q : Fin 1024)
    (hR : R.val = t.val / 48 * 2048 + r.val) (hO : O.val = t.val / 12 % 4 * 1024 + q.val) :
    (stepAt m c t.val t.isLt).2 (ix2 r q) = 0 + ∑ p : Fin 512, term1 m c R O ⟨p.val, by have := p.isLt; omega⟩ := by
  rw [stepAt_A m c t hk]
  dsimp only
  rw [accA_eq, Pay.pay2_apply, Pay.pay1_apply]
  refine congrArg _ (Finset.sum_congr rfl fun p _ => ?_)
  have hp := p.isLt
  unfold term1 arrX1 arrW1
  rw [blk0_at m c t (by omega) (ix2 r p) (ix2 R ⟨p.val, by omega⟩) (by show R.val = t.val / 48 * 2048 + r.val; omega) (by show p.val = t.val % 12 * 512 + p.val; omega),
    blk1_at m c t (by omega) (ix2 p q) (ix2 ⟨p.val, by omega⟩ O) (by show p.val = t.val % 12 * 512 + p.val; omega) (by show O.val = t.val / 12 % 4 * 1024 + q.val; omega)]

/-- A later step of the first product: what the point before left, plus slab k. -/
theorem step_first (c : Dev nD) (t : Fin cfg0.N) (h0 : t.val % 12 ≠ 0) (h8 : t.val % 12 < 8) (R : Fin 8192) (O : Fin 4096)
    (r : Fin 2048) (q : Fin 1024) (hR : R.val = t.val / 48 * 2048 + r.val) (hO : O.val = t.val / 12 % 4 * 1024 + q.val) :
    (stepAt m c t.val t.isLt).2 (ix2 r q)
      = (stepAt m c (t.val - 1) (Nat.lt_of_le_of_lt (Nat.sub_le _ _) t.isLt)).2 (ix2 r q)
        + ∑ p : Fin 512, term1 m c R O ⟨512 * (t.val % 12) + p.val, by have := p.isLt; omega⟩ := by
  rw [stepAt_B m c t h0 h8]
  dsimp only
  rw [accB_eq, Pay.pay2_apply]
  refine congrArg _ (Finset.sum_congr rfl fun p _ => ?_)
  have hp := p.isLt
  unfold term1 arrX1 arrW1
  rw [blk0_at m c t h8 (ix2 r p) (ix2 R ⟨512 * (t.val % 12) + p.val, by omega⟩) (by show R.val = t.val / 48 * 2048 + r.val; omega) (by show 512 * (t.val % 12) + p.val = t.val % 12 * 512 + p.val; omega),
    blk1_at m c t h8 (ix2 p q) (ix2 ⟨512 * (t.val % 12) + p.val, by omega⟩ O) (by show 512 * (t.val % 12) + p.val = t.val % 12 * 512 + p.val; omega) (by show O.val = t.val / 12 % 4 * 1024 + q.val; omega)]

/-- A step of the second product: what the point before left, plus slab k − 8. -/
theorem step_second (c : Dev nD) (t : Fin cfg0.N) (h8 : 8 ≤ t.val % 12) (R : Fin 8192) (O : Fin 4096)
    (r : Fin 2048) (q : Fin 1024) (hR : R.val = t.val / 48 * 2048 + r.val) (hO : O.val = t.val / 12 % 4 * 1024 + q.val) :
    (stepAt m c t.val t.isLt).2 (ix2 r q)
      = (stepAt m c (t.val - 1) (Nat.lt_of_le_of_lt (Nat.sub_le _ _) t.isLt)).2 (ix2 r q)
        + ∑ p : Fin 512, term2 m c R O ⟨512 * (t.val % 12 - 8) + p.val, by have := p.isLt; have := Nat.mod_lt t.val (by decide : 0 < 12); omega⟩ := by
  have hlt := Nat.mod_lt t.val (by decide : 0 < 12)
  have key : ∀ (prev x2 x3 : _), (k0_pay3 (F := Ideal) prev x2 x3) (ix2 r q) = prev (ix2 r q) + ∑ l : Fin 512, x2 (ix2 r l) * x3 (ix2 l q) :=
    fun prev x2 x3 => Pay.pay3_apply prev x2 x3 r q
  by_cases h11 : t.val % 12 = 11
  · rw [stepAt_D m c t h11]
    dsimp only
    rw [accD_eq, key]
    refine congrArg _ (Finset.sum_congr rfl fun p _ => ?_)
    have hp := p.isLt
    unfold term2 arrX2 arrW2
    rw [blk2_at m c t h8 (ix2 r p) (ix2 R ⟨512 * (t.val % 12 - 8) + p.val, by omega⟩) (by show R.val = t.val / 48 * 2048 + r.val; omega) (by show 512 * (t.val % 12 - 8) + p.val = (t.val % 12 - 8) * 512 + p.val; omega),
      blk3_at m c t h8 (ix2 p q) (ix2 ⟨512 * (t.val % 12 - 8) + p.val, by omega⟩ O) (by show 512 * (t.val % 12 - 8) + p.val = (t.val % 12 - 8) * 512 + p.val; omega) (by show O.val = t.val / 12 % 4 * 1024 + q.val; omega)]
  · rw [stepAt_C m c t h8 h11]
    dsimp only
    rw [accC_eq, key]
    refine congrArg _ (Finset.sum_congr rfl fun p _ => ?_)
    have hp := p.isLt
    unfold term2 arrX2 arrW2
    rw [blk2_at m c t h8 (ix2 r p) (ix2 R ⟨512 * (t.val % 12 - 8) + p.val, by omega⟩) (by show R.val = t.val / 48 * 2048 + r.val; omega) (by show 512 * (t.val % 12 - 8) + p.val = (t.val % 12 - 8) * 512 + p.val; omega),
      blk3_at m c t h8 (ix2 p q) (ix2 ⟨512 * (t.val % 12 - 8) + p.val, by omega⟩ O) (by show 512 * (t.val % 12 - 8) + p.val = (t.val % 12 - 8) * 512 + p.val; omega) (by show O.val = t.val / 12 % 4 * 1024 + q.val; omega)]

/-- THE ACCUMULATOR AFTER EVERY POINT. -/
theorem acc_closed (c : Dev nD) (R : Fin 8192) (O : Fin 4096) (r : Fin 2048) (q : Fin 1024) :
    ∀ (n : ℕ) (hn : n < cfg0.N), R.val = n / 48 * 2048 + r.val → O.val = n / 12 % 4 * 1024 + q.val →
      (n % 12 < 8 → (stepAt m c n hn).2 (ix2 r q) = psum (term1 m c R O) (512 * (n % 12 + 1)))
      ∧ (8 ≤ n % 12 → (stepAt m c n hn).2 (ix2 r q)
          = psum (term1 m c R O) 4096 + psum (term2 m c R O) (512 * (n % 12 - 7))) := by
  intro n
  induction n with
  | zero =>
    intro hn hR hO
    refine ⟨fun _ => ?_, fun h => absurd h (by decide)⟩
    rw [step_clear m c ⟨0, hn⟩ rfl R O r q hR hO]
    exact (psum_first_tile (term1 m c R O) 512 (by decide)).symm
  | succ n ih =>
    intro hn hR hO
    have hlt := Nat.mod_lt (n + 1) (by decide : 0 < 12)
    by_cases h0 : (n + 1) % 12 = 0
    · refine ⟨fun _ => ?_, fun h => absurd h (by omega)⟩
      rw [step_clear m c ⟨n + 1, hn⟩ h0 R O r q hR hO, h0]
      exact (psum_first_tile (term1 m c R O) 512 (by decide)).symm
    · have hprev := ih (Nat.lt_of_succ_lt hn) (by omega) (by omega)
      have hm : n % 12 + 1 = (n + 1) % 12 := by omega
      by_cases h8 : (n + 1) % 12 < 8
      · refine ⟨fun _ => ?_, fun h => absurd h (by omega)⟩
        rw [step_first m c ⟨n + 1, hn⟩ h0 h8 R O r q hR hO]
        show (stepAt m c n _).2 (ix2 r q) + _ = _
        rw [hprev.1 (by omega), hm, show 512 * ((n + 1) % 12 + 1) = 512 * ((n + 1) % 12) + 512 from by omega,
          psum_add_tile (term1 m c R O) (512 * ((n + 1) % 12)) 512 (by omega)]
      · refine ⟨fun h => absurd h h8, fun _ => ?_⟩
        rw [step_second m c ⟨n + 1, hn⟩ (by omega) R O r q hR hO]
        show (stepAt m c n _).2 (ix2 r q) + _ = _
        by_cases h88 : (n + 1) % 12 = 8
        · rw [hprev.1 (by omega), hm]
          refine congrArg₂ (· + ·) (congrArg _ (by omega)) ?_
          rw [show 512 * ((n + 1) % 12 - 7) = 0 + 512 from by omega, psum_add_tile (term2 m c R O) 0 512 (by decide), psum_zero, zero_add]
          exact Finset.sum_congr rfl fun p _ => congrArg _ (Fin.ext (by show 512 * ((n + 1) % 12 - 8) + p.val = 0 + p.val; omega))
        · rw [hprev.2 (by omega), add_assoc]
          refine congrArg _ ?_
          rw [show 512 * ((n + 1) % 12 - 7) = 512 * ((n + 1) % 12 - 8) + 512 from by omega,
            show 512 * (n % 12 - 7) = 512 * ((n + 1) % 12 - 8) from by omega,
            psum_add_tile (term2 m c R O) (512 * ((n + 1) % 12 - 8)) 512 (by omega)]

/-- After a last step the accumulator's entry is the two whole sums. -/
theorem acc_last (c : Dev nD) (t : Fin cfg0.N) (h11 : t.val % 12 = 11) (R : Fin 8192) (O : Fin 4096) (r : Fin 2048) (q : Fin 1024)
    (hR : R.val = t.val / 48 * 2048 + r.val) (hO : O.val = t.val / 12 % 4 * 1024 + q.val) :
    (stepAt m c t.val t.isLt).2 (ix2 r q) = (∑ d : Fin 4096, term1 m c R O d) + ∑ d : Fin 2048, term2 m c R O d := by
  rw [((acc_closed m c R O r q t.val t.isLt hR hO).2 (by omega)), h11, show 512 * (11 - 7) = 2048 from rfl, psum_full, psum_full]

end Cert.KernelIdeal.Acc

end
-- ==== Proof.KiFinal.lean ====
/-
  The array the region writes.

  At a last step (t mod 12 = 11) the tile stored is  u · tanh((acc + noise·t) + row)  of the accumulator just completed,
  the noise block and the per-feature row; the accumulator's entry is the two whole sums. Read at the array's entry
  (R, O) — row-block t / 48, column-block (t / 12) mod 4 — every stored tile is the restriction to its block of ONE
  function of the arrays the region finds, and the sixteen tiles written back (one per row-block and column-block)
  cover the array. So the array ends holding that function.
-/
import proofs.«122913_j10041633538618_2_alg».proof.Proof.KiTile
import Idealize.ShloMosaic.Lib.Pipeline.Value

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

variable (m : (ℓ : Loc nD τ sig) → Buf (Elt Ideal) ℓ)

/-- What the output array holds at (R, O): u · tanh(((Σ p1 + Σ p2) + noise(R, O)·t) + row(O)). -/
def outArr (c : Dev nD) : S8192x4096.Idx → EReal := fun i =>
  Cert.Formula.cOne * Ideal.tanh ((((∑ d : Fin 4096, term1 m c (i 0) (i 1) d) + ∑ d : Fin 2048, term2 m c (i 0) (i 1) d)
      + arrN m c (ix2 (i 0) (i 1)) * Cert.Formula.cTenth) + arrRow m c (ix2 0 (i 1)))

/-- At a last step: the accumulator is the last slab's payload, and the tile is the finishing payload of it. -/
theorem last_parts (c : Dev nD) (t : Fin cfg0.N) (h11 : t.val % 12 = 11) :
    (stepAt m c t.val t.isLt).1 = k0_pay4 ((stepAt m c t.val t.isLt).2) (iblk m c 4 t) (iblk m c 5 t) := by
  rw [stepAt_D m c t h11]
  dsimp only
  rw [accD_eq, outD_eq]

/-- WHAT A LAST STEP WRITES BACK is its block of `outArr`. -/
theorem flushed_eq (c : Dev nD) (t : Fin cfg0.N) (hf : (cfg0.win 6).flush t = true) :
    (dats m 0 c).flushed 6 t = ((cfg0.win 6).blk t).view.read (Elt Ideal) (outArr m c) := by
  have h11 : t.val % 12 = 11 := (flush0_6 t).mp hf
  show (cfg0.win 6).cut (grid0.coords t) ((dats m 0 c).after 6 t) = _
  rw [after_6, last_parts m c t h11]
  funext y
  show k0_pay4 ((stepAt m c t.val t.isLt).2) (iblk m c 4 t) (iblk m c 5 t) y = outArr m c (((cfg0.win 6).blk t).view.emb y)
  obtain ⟨r, q, rfl⟩ : ∃ (r : Fin 2048) (q : Fin 1024), y = ix2 r q := ⟨y 0, y 1, eq_ix2 y⟩
  have e := idx_facts t
  have hr := r.isLt
  have hq := q.isLt
  have hR : ((((cfg0.win 6).blk t).view.emb (ix2 r q)) 0).val = t.val / 48 * 2048 + r.val := by
    show win0_6.index t (0 : Fin 2) * 2048 + 1 * r.val = _; omega
  have hO : ((((cfg0.win 6).blk t).view.emb (ix2 r q)) 1).val = t.val / 12 % 4 * 1024 + q.val := by
    show win0_6.index t (1 : Fin 2) * 1024 + 1 * q.val = _; omega
  rw [Pay.pay4_apply, acc_last m c t h11 _ _ r q hR hO,
    blk4_at m c t (ix2 r q) (ix2 ((((cfg0.win 6).blk t).view.emb (ix2 r q)) 0) ((((cfg0.win 6).blk t).view.emb (ix2 r q)) 1)) hR hO,
    blk5_at m c t (ix2 0 q) (ix2 0 ((((cfg0.win 6).blk t).view.emb (ix2 r q)) 1)) (by show 0 = 0 * 1 + 0; rfl) hO]
  unfold outArr arrN arrRow
  rfl

/-- An entry of the array is in point t's block iff each coordinate is in the block's range. -/
theorem mem_blk (t : Fin cfg0.N) (i : S8192x4096.Idx) :
    i ∈ ((cfg0.win 6).blk t).view.set ↔ ∀ a : Fin 2, win0_6.index t a * S2048x1024.size a ≤ (i a).val ∧ (i a).val < win0_6.index t a * S2048x1024.size a + S2048x1024.size a := by
  show i ∈ ((View.whole main_v26).slice (win0_6.rect t)).set ↔ _
  rw [View.set_slice_whole, Rect.mem_set_unit]
  exact Iff.rfl

/-- Every entry is in the block of a last step: the one of its row-block and column-block. -/
theorem covered (i : S8192x4096.Idx) : ∃ t : Fin cfg0.N, (cfg0.win 6).flush t = true ∧ i ∈ ((cfg0.win 6).blk t).view.set := by
  have hi0 : (i 0).val < 8192 := (i 0).isLt
  have hi1 : (i 1).val < 4096 := (i 1).isLt
  have hn : (i 0).val / 2048 * 48 + (i 1).val / 1024 * 12 + 11 < cfg0.N := by
    show _ < grid0.N; rw [N_0]; omega
  refine ⟨⟨(i 0).val / 2048 * 48 + (i 1).val / 1024 * 12 + 11, hn⟩, (flush0_6 _).mpr (by show ((i 0).val / 2048 * 48 + (i 1).val / 1024 * 12 + 11) % 12 = 11; omega), ?_⟩
  rw [mem_blk]
  have e := idx_facts ⟨(i 0).val / 2048 * 48 + (i 1).val / 1024 * 12 + 11, hn⟩
  have hv : (⟨(i 0).val / 2048 * 48 + (i 1).val / 1024 * 12 + 11, hn⟩ : Fin cfg0.N).val = (i 0).val / 2048 * 48 + (i 1).val / 1024 * 12 + 11 := rfl
  rw [hv] at e
  intro a
  match a with
  | ⟨0, _⟩ =>
    show win0_6.index _ (0 : Fin 2) * 2048 ≤ (i 0).val ∧ (i 0).val < win0_6.index _ (0 : Fin 2) * 2048 + 2048
    omega
  | ⟨1, _⟩ =>
    show win0_6.index _ (1 : Fin 2) * 1024 ≤ (i 1).val ∧ (i 1).val < win0_6.index _ (1 : Fin 2) * 1024 + 1024
    omega

/-- THE OUTPUT ARRAY after the region. -/
theorem final_out (c : Dev nD) : (dats m 0 c).arrAt 6 cfg0.N = outArr m c :=
  (dats m 0 c).arrAt_eq_of_cover 6 (outArr m c) (fun t hf => flushed_eq m c t hf) (covered)

end Cert.KernelIdeal.Acc

end
-- ==== Proof.KiHost.lean ====
/-
  The arrays the host lines before the region prepare, read at an index.

  Before the region the program reshapes the three batched inputs [4, 2048, ·] to [8192, ·] (row 2048·a + s of the
  reshaped array is row (a, s) of the input, because both are laid out row-major), halves the two weight matrices entrywise,
  and gathers the per-feature row  (((g·bucket + h·b1) + h·b2) + b) − t·|prev|  into a [1, 4096] array. Changes of the
  float format are the identity on the extended reals, and |p| is max(p, −p).
-/
import proofs.«122913_j10041633538618_2_alg».proof.Proof.Gen.KernelIdeal.Frame
import proofs.«122913_j10041633538618_2_alg».proof.Proof.Formula
import Idealize.ShloMosaic.Lib.Pipeline.Value
import Idealize.ShloMosaic.Lib.ValueLayout

noncomputable section

open scoped BigOperators

namespace Cert.KernelIdeal.HostIn

open Cert.KernelIdeal Cert.KernelIdeal.Gen Idealize.ShloMosaic Idealize.ShloMosaic.TcCoe Idealize.ShloMosaic.ValueIdx
open Idealize.ShloMosaic.Tactic Idealize.SL.Sem

variable (m : (ℓ : Loc nD τ sig) → Buf (Elt Ideal) ℓ) (c : Dev nD)

/-! ## Generic readings -/

/-- A [4, 2048, n] array reshaped to [8192, n]: row 2048·a + s of the result is row (a, s) of the operand. -/
theorem reshape_rows_apply {α : Type} {n : ℕ} (x : (⟨3, ![4, 2048, n]⟩ : Shape).Idx → α)
    (h : (⟨3, ![4, 2048, n]⟩ : Shape).ShapeCasts ⟨2, ![8192, n]⟩) (a : Fin 4) (s : Fin 2048) (d : Fin n) (R : Fin 8192)
    (hR : R.val = 2048 * a.val + s.val) : shapeCast ⟨2, ![8192, n]⟩ x h (ix2 R d) = x (ix3 a s d) :=
  shapeCast_apply x h (ix2 R d) (ix3 a s d) (by
    rw [Shape.rowMajor_val_three, Shape.rowMajor_val_two]
    show (a.val * 2048 + s.val) * n + d.val = R.val * n + d.val
    rw [hR, Nat.mul_comm 2048 a.val])

/-- A [1, 1, n] array reshaped to [n] reads, at o, the operand at (0, 0, o). -/
theorem reshape_11n_apply {α : Type} {n : ℕ} (x : (⟨3, ![1, 1, n]⟩ : Shape).Idx → α)
    (h : (⟨3, ![1, 1, n]⟩ : Shape).ShapeCasts ⟨1, ![n]⟩) (o : Fin n) :
    shapeCast ⟨1, ![n]⟩ x h (ix1 o) = x (ix3 (0 : Fin 1) (0 : Fin 1) o) :=
  shapeCast_apply x h (ix1 o) (ix3 (0 : Fin 1) (0 : Fin 1) o) (by
    rw [Shape.rowMajor_val_three, Shape.rowMajor_val_one]
    show (0 * 1 + 0) * n + o.val = o.val
    omega)

/-- A scalar constant broadcast to any shape reads its word's value everywhere. -/
theorem bcast_const_apply {S : Shape} (bc : (⟨0, ![]⟩ : Shape).BroadcastsInDim S ![]) (w : BitVec 32) (i : S.Idx) :
    broadcastInDim S ![] bc (constant (F := Ideal) ⟨0, ![]⟩ .f32 w) i = Ideal.ofBits .f32 w := by
  rw [broadcastInDim_apply ![] bc _ i ix0 fun d => d.elim0]
  rfl

/-- An array times the broadcast constant one half, at an index. -/
theorem halved_apply {S : Shape} (bc : (⟨0, ![]⟩ : Shape).BroadcastsInDim S ![]) (W : FVec Ideal S .f32) (i : S.Idx) :
    mulf W (broadcastInDim S ![] bc (constant (F := Ideal) ⟨0, ![]⟩ .f32 0x3F000000#32)) i = W i * Cert.Formula.cHalf :=
  congrArg (fun z => W i * z) (bcast_const_apply bc _ i)

/-- The host's per-feature row at o is the fused arrangement's row: g·bucket + h·b1 + h·b2 + b − t·|prev|, the previous
    output read through its reshape to [4096]. -/
theorem row_apply (b1 b2 b bucket : FVec Ideal S4096 .f32) (prev : FVec Ideal S1x1x4096 .f32) (o : Fin 4096) :
    subf
        (addf
          (addf
            (addf
              (mulf (broadcastInDim S4096 ![] bcast_S_S4096 (constant (F := Ideal) S_ .f32 0x3F666666#32)) bucket)
              (mulf (broadcastInDim S4096 ![] bcast_S_S4096 (constant (F := Ideal) S_ .f32 0x3F000000#32)) b1))
            (mulf (broadcastInDim S4096 ![] bcast_S_S4096 (constant (F := Ideal) S_ .f32 0x3F000000#32)) b2))
          b)
        (mulf (broadcastInDim S4096 ![] bcast_S_S4096 (constant (F := Ideal) S_ .f32 0x3DCCCCCD#32))
          (Host.absf (F := Ideal) (shapeCast S4096 prev shapeCasts_S1x1x4096_S4096))) (ix1 o)
      = Cert.Formula.featRow b1 b2 b bucket prev o := by
  have hg := bcast_const_apply bcast_S_S4096 0x3F666666#32 (ix1 o)
  have hh := bcast_const_apply bcast_S_S4096 0x3F000000#32 (ix1 o)
  have ht := bcast_const_apply bcast_S_S4096 0x3DCCCCCD#32 (ix1 o)
  have hp := reshape_11n_apply prev shapeCasts_S1x1x4096_S4096 o
  show ((((broadcastInDim S4096 ![] bcast_S_S4096 (constant (F := Ideal) S_ .f32 0x3F666666#32) (ix1 o) * bucket (ix1 o)
            + broadcastInDim S4096 ![] bcast_S_S4096 (constant (F := Ideal) S_ .f32 0x3F000000#32) (ix1 o) * b1 (ix1 o))
          + broadcastInDim S4096 ![] bcast_S_S4096 (constant (F := Ideal) S_ .f32 0x3F000000#32) (ix1 o) * b2 (ix1 o))
        + b (ix1 o))
      - broadcastInDim S4096 ![] bcast_S_S4096 (constant (F := Ideal) S_ .f32 0x3DCCCCCD#32) (ix1 o)
          * max (shapeCast S4096 prev shapeCasts_S1x1x4096_S4096 (ix1 o)) (-(shapeCast S4096 prev shapeCasts_S1x1x4096_S4096 (ix1 o)))) = _
  rw [hg, hh, ht, hp]
  rfl

/-! ## The six arrays as the host lines' terms -/

/-- The first input reshaped to [8192, 4096] (and its format changed). -/
theorem V_main_v1 : V (F := Ideal) m c main_v1
    = (truncf .bf16 (shapeCast S8192x4096 (m ((c : Thread nD τ).loc main_arg0)) shapeCasts_S4x2048x4096_S8192x4096) bitsLt_bf16_f32
        : FVec Ideal S8192x4096 .bf16) := by
  show StableHlo.after hostOps0 (fun b => m (c, b)) (Proc.devRef .tc main_v1) = _
  after_results <;> rfl

/-- The second input reshaped to [8192, 2048] (and its format changed). -/
theorem V_main_v3 : V (F := Ideal) m c main_v3
    = (truncf .bf16 (shapeCast S8192x2048 (m ((c : Thread nD τ).loc main_arg1)) shapeCasts_S4x2048x2048_S8192x2048) bitsLt_bf16_f32
        : FVec Ideal S8192x2048 .bf16) := by
  show StableHlo.after hostOps0 (fun b => m (c, b)) (Proc.devRef .tc main_v3) = _
  after_results <;> rfl

/-- The noise reshaped to [8192, 4096]. -/
theorem V_main_v4 : V (F := Ideal) m c main_v4
    = (shapeCast S8192x4096 (m ((c : Thread nD τ).loc main_arg2)) shapeCasts_S4x2048x4096_S8192x4096 : FVec Ideal S8192x4096 .f32) := by
  show StableHlo.after hostOps0 (fun b => m (c, b)) (Proc.devRef .tc main_v4) = _
  after_results <;> rfl

/-- The first weight matrix halved (and its format changed). -/
theorem V_main_v8 : V (F := Ideal) m c main_v8
    = (truncf .bf16 (mulf (m ((c : Thread nD τ).loc main_arg3))
          (broadcastInDim S4096x4096 ![] bcast_S_S4096x4096 (constant (F := Ideal) S_ .f32 0x3F000000#32))) bitsLt_bf16_f32
        : FVec Ideal S4096x4096 .bf16) := by
  show StableHlo.after hostOps0 (fun b => m (c, b)) (Proc.devRef .tc main_v8) = _
  after_results <;> rfl

/-- The second weight matrix halved (and its format changed). -/
theorem V_main_v11 : V (F := Ideal) m c main_v11
    = (truncf .bf16 (mulf (m ((c : Thread nD τ).loc main_arg5))
          (broadcastInDim S2048x4096 ![] bcast_S_S2048x4096 (constant (F := Ideal) S_ .f32 0x3F000000#32))) bitsLt_bf16_f32
        : FVec Ideal S2048x4096 .bf16) := by
  show StableHlo.after hostOps0 (fun b => m (c, b)) (Proc.devRef .tc main_v11) = _
  after_results <;> rfl

set_option maxHeartbeats 2000000 in
/-- The per-feature row (((g·bucket + h·b1) + h·b2) + b) − t·|prev|, reshaped to [1, 4096]. -/
theorem V_main_v25 : V (F := Ideal) m c main_v25
    = (shapeCast S1x4096
        (subf
          (addf
            (addf
              (addf
                (mulf (broadcastInDim S4096 ![] bcast_S_S4096 (constant (F := Ideal) S_ .f32 0x3F666666#32)) (m ((c : Thread nD τ).loc main_arg8)))
                (mulf (broadcastInDim S4096 ![] bcast_S_S4096 (constant (F := Ideal) S_ .f32 0x3F000000#32)) (m ((c : Thread nD τ).loc main_arg4))))
              (mulf (broadcastInDim S4096 ![] bcast_S_S4096 (constant (F := Ideal) S_ .f32 0x3F000000#32)) (m ((c : Thread nD τ).loc main_arg6))))
            (m ((c : Thread nD τ).loc main_arg7)))
          (mulf (broadcastInDim S4096 ![] bcast_S_S4096 (constant (F := Ideal) S_ .f32 0x3DCCCCCD#32))
            (Host.absf (F := Ideal) (shapeCast S4096 (m ((c : Thread nD τ).loc main_arg9)) shapeCasts_S1x1x4096_S4096))))
        shapeCasts_S4096_S1x4096 : FVec Ideal S1x4096 .f32) := by
  show StableHlo.after hostOps0 (fun b => m (c, b)) (Proc.devRef .tc main_v25) = _
  after_results_simp <;> rfl

/-! ## The six arrays at an index -/

/-- Row 2048·a + s of the reshaped first input is row (a, s) of the input. -/
theorem main_v1_apply (a : Fin 4) (s : Fin 2048) (d : Fin 4096) (R : Fin 8192) (hR : R.val = 2048 * a.val + s.val) :
    (V (F := Ideal) m c main_v1 (ix2 R d) : EReal) = m ((c : Thread nD τ).loc main_arg0) (ix3 a s d) :=
  (congrFun (V_main_v1 m c) (ix2 R d)).trans
    (reshape_rows_apply (m ((c : Thread nD τ).loc main_arg0)) shapeCasts_S4x2048x4096_S8192x4096 a s d R hR)

/-- Row 2048·a + s of the reshaped second input is row (a, s) of the input. -/
theorem main_v3_apply (a : Fin 4) (s : Fin 2048) (d : Fin 2048) (R : Fin 8192) (hR : R.val = 2048 * a.val + s.val) :
    (V (F := Ideal) m c main_v3 (ix2 R d) : EReal) = m ((c : Thread nD τ).loc main_arg1) (ix3 a s d) :=
  (congrFun (V_main_v3 m c) (ix2 R d)).trans
    (reshape_rows_apply (m ((c : Thread nD τ).loc main_arg1)) shapeCasts_S4x2048x2048_S8192x2048 a s d R hR)

/-- Row 2048·a + s of the reshaped noise is row (a, s) of the noise. -/
theorem main_v4_apply (a : Fin 4) (s : Fin 2048) (o : Fin 4096) (R : Fin 8192) (hR : R.val = 2048 * a.val + s.val) :
    (V (F := Ideal) m c main_v4 (ix2 R o) : EReal) = m ((c : Thread nD τ).loc main_arg2) (ix3 a s o) :=
  (congrFun (V_main_v4 m c) (ix2 R o)).trans
    (reshape_rows_apply (m ((c : Thread nD τ).loc main_arg2)) shapeCasts_S4x2048x4096_S8192x4096 a s o R hR)

/-- The prepared first weight matrix is the weight matrix times one half. -/
theorem main_v8_apply (d o : Fin 4096) :
    (V (F := Ideal) m c main_v8 (ix2 d o) : EReal)
      = HMul.hMul (α := EReal) (β := EReal) (γ := EReal) (m ((c : Thread nD τ).loc main_arg3) (ix2 d o)) Cert.Formula.cHalf :=
  (congrFun (V_main_v8 m c) (ix2 d o)).trans (halved_apply bcast_S_S4096x4096 (m ((c : Thread nD τ).loc main_arg3)) (ix2 d o))

/-- The prepared second weight matrix is the weight matrix times one half. -/
theorem main_v11_apply (d : Fin 2048) (o : Fin 4096) :
    (V (F := Ideal) m c main_v11 (ix2 d o) : EReal)
      = HMul.hMul (α := EReal) (β := EReal) (γ := EReal) (m ((c : Thread nD τ).loc main_arg5) (ix2 d o)) Cert.Formula.cHalf :=
  (congrFun (V_main_v11 m c) (ix2 d o)).trans (halved_apply bcast_S_S2048x4096 (m ((c : Thread nD τ).loc main_arg5)) (ix2 d o))

/-- The prepared row at (0, o) is the per-feature row of the fused arrangement at o. -/
theorem main_v25_apply (o : Fin 4096) :
    (V (F := Ideal) m c main_v25 (ix2 (0 : Fin 1) o) : EReal)
      = Cert.Formula.featRow (m ((c : Thread nD τ).loc main_arg4)) (m ((c : Thread nD τ).loc main_arg6))
          (m ((c : Thread nD τ).loc main_arg7)) (m ((c : Thread nD τ).loc main_arg8)) (m ((c : Thread nD τ).loc main_arg9)) o :=
  ((congrFun (V_main_v25 m c) (ix2 (0 : Fin 1) o)).trans (shapeCast_a_1a_apply _ shapeCasts_S4096_S1x4096 0 o)).trans
    (row_apply (m ((c : Thread nD τ).loc main_arg4)) (m ((c : Thread nD τ).loc main_arg6)) (m ((c : Thread nD τ).loc main_arg7))
      (m ((c : Thread nD τ).loc main_arg8)) (m ((c : Thread nD τ).loc main_arg9)) o)

end Cert.KernelIdeal.HostIn

end
-- ==== Proof.KiValue.lean ====
/-
  The result of the kernel's program, as one function of its ten arguments.

  After the region the program reshapes the [8192, 4096] array to [4, 2048, 4096]: entry (a, s, o) is the array's entry at
  row 2048·a + s, column o. The arrays the region found are, entry by entry, the arguments re-laid and the weights
  halved: X1(2048·a + s, d) = x1(a, s, d), W1'(d, o) = W1(d, o)·h, likewise X2 and W2', the noise re-laid, and the row
  the per-feature combination. So the result at (a, s, o) is the fused arrangement of the ten arguments.
-/
import proofs.«122913_j10041633538618_2_alg».proof.Proof.KiFinal
import proofs.«122913_j10041633538618_2_alg».proof.Proof.KiHost
import Idealize.ShloMosaic.Lib.StableHlo.Run

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

variable (m : (ℓ : Loc nD τ sig) → Buf (Elt Ideal) ℓ) (ρ : Dev nD → PrngReg)

/-- The host line after the region reshapes what the region wrote. -/
theorem tail_eq (c : Dev nD) : Pipeline.afterTail₀ cfgs (dats m) 0 (V0 m) [hostOps1] c main_v27
    = shapeCast S4x2048x4096 (outArr m c) shapeCasts_S8192x4096_S4x2048x4096 := by
  have hw : Pipeline.withArrays (cfgs 0).spec c (V0 m c) (fun w => (dats m 0 c).arrAt w (cfgs 0).N) (Proc.devRef .tc main_v26) = outArr m c :=
    (Pipeline.withArrays_arr spec0 launch0.win.arr_inj c _ _ 6).trans (final_out m c)
  unfold Pipeline.afterTail₀
  show StableHlo.after hostOps1 _ (Proc.devRef .tc main_v27) = _
  after_results
  rw [hw]
  rfl

/-- THE RESULT: the fused arrangement of the ten arguments, entry by entry. -/
theorem result_eq (c : Dev nD) :
    Pipeline.afterTail₀ cfgs (dats m) 0 (V0 m) [hostOps1] c main_v27
      = fun i => Cert.Formula.fused (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (i 0) (i 1) (i 2) := by
  rw [tail_eq]
  funext i
  obtain ⟨a, s, o, rfl⟩ : ∃ (a : Fin 4) (s : Fin 2048) (o : Fin 4096), i = ix3 a s o := ⟨i 0, i 1, i 2, eq_ix3 i⟩
  have ha := a.isLt
  have hs := s.isLt
  have hR : (⟨2048 * a.val + s.val, by omega⟩ : Fin 8192).val = 2048 * a.val + s.val := rfl
  rw [shapeCast_apply (outArr m c) shapeCasts_S8192x4096_S4x2048x4096 (ix3 a s o) (ix2 (⟨2048 * a.val + s.val, by omega⟩ : Fin 8192) o)
    (by rw [Shape.rowMajor_val_two, Shape.rowMajor_val_three]
        show (2048 * a.val + s.val) * 4096 + o.val = (a.val * 2048 + s.val) * 4096 + o.val
        omega)]
  unfold outArr term1 term2 arrX1 arrW1 arrX2 arrW2 arrN arrRow
  show Cert.Formula.cOne * Ideal.tanh (HAdd.hAdd (α := EReal) (β := EReal) (γ := EReal) (HAdd.hAdd (α := EReal) (β := EReal) (γ := EReal) (((∑ d : Fin 4096, HMul.hMul (α := EReal) (β := EReal) (γ := EReal) (V m c main_v1 (ix2 (⟨2048 * a.val + s.val, by omega⟩ : Fin 8192) d)) (V m c main_v8 (ix2 d o)))
      + ∑ d : Fin 2048, HMul.hMul (α := EReal) (β := EReal) (γ := EReal) (V m c main_v3 (ix2 (⟨2048 * a.val + s.val, by omega⟩ : Fin 8192) d)) (V m c main_v11 (ix2 d o))))
      (HMul.hMul (α := EReal) (β := EReal) (γ := EReal) (V m c main_v4 (ix2 (⟨2048 * a.val + s.val, by omega⟩ : Fin 8192) o)) (Cert.Formula.cTenth))) (V m c main_v25 (ix2 0 o))) = _
  simp only [fun d => HostIn.main_v1_apply m c a s d _ hR, fun d => HostIn.main_v3_apply m c a s d _ hR, HostIn.main_v4_apply m c a s o _ hR,
    fun d => HostIn.main_v8_apply m c d o, fun d => HostIn.main_v11_apply m c d o, HostIn.main_v25_apply m c o]
  rfl

/-- THE RUN, READ: every weakly fair execution terminates, the result is the fused arrangement of the arguments,
    and the arguments end unchanged. -/
theorem run_value : θ_run defs (onTc (τ := τ) (main (F := Ideal))) ⟨m, fun _ => 0, ρ⟩ (fun r => ∀ c : Dev nD,
      r.2.mem ((c.tc : Thread nD τ).loc main_v27) = (fun i => Cert.Formula.fused (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_v27 (Pipeline.mem_restRefs_of main_v27 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩) (run_main m ρ)

end Cert.KernelIdeal.Acc

end
-- ==== Proof.RefSide.lean ====
/-
  The reference program's result is the layered arrangement.

  The reference computes, entry by entry: two projections (sums over the contracted axis), each plus its bias row; their
  sum times one half; plus the shared bias; plus a tenth of the noise; plus nine tenths of the bucket row; minus a tenth
  of the absolute value of the previous output's row; the hyperbolic tangent of that; times one. Each row vector enters
  through two broadcasts (to 1x1x4096, then to 4x2048x4096), which at the index (a, s, o) read the row at o. Reading every
  operation at the index (a, s, o) gives exactly the layered arrangement of the formula module, argument for argument.
-/
import proofs.«122913_j10041633538618_2_alg».proof.Proof.Gen.ReferenceIdeal.Read
import proofs.«122913_j10041633538618_2_alg».proof.Proof.Formula

noncomputable section

open scoped BigOperators

namespace Cert.RefSide

open Cert.ReferenceIdeal Cert.ReferenceIdeal.Gen Cert.ReferenceIdeal.Read Idealize.ShloMosaic Idealize.ShloMosaic.ValueIdx
open Cert.Formula

/-- The reference's result, as a function of its ten arguments, is the layered arrangement at each index. -/
theorem val_main_v29_eq_layered
    (a0 : (⟨S4x2048x4096, .f32⟩ : BufTy).Contents (Elt Ideal)) (a1 : (⟨S4x2048x2048, .f32⟩ : BufTy).Contents (Elt Ideal))
    (a2 : (⟨S4x2048x4096, .f32⟩ : BufTy).Contents (Elt Ideal)) (a3 : (⟨S4096x4096, .f32⟩ : BufTy).Contents (Elt Ideal))
    (a4 : (⟨S4096, .f32⟩ : BufTy).Contents (Elt Ideal)) (a5 : (⟨S2048x4096, .f32⟩ : BufTy).Contents (Elt Ideal))
    (a6 a7 a8 : (⟨S4096, .f32⟩ : BufTy).Contents (Elt Ideal)) (a9 : (⟨S1x1x4096, .f32⟩ : BufTy).Contents (Elt Ideal)) :
    val_main_v29 (F := Ideal) a0 a1 a2 a3 a4 a5 a6 a7 a8 a9
      = fun i => layered a0 a1 a2 a3 a4 a5 a6 a7 a8 a9 (i 0) (i 1) (i 2) := by
  funext i
  obtain ⟨a, s, o, rfl⟩ : ∃ (a : Fin 4) (s : Fin 2048) (o : Fin 4096), i = ix3 a s o := ⟨i 0, i 1, i 2, eq_ix3 i⟩
  show _ = layered a0 a1 a2 a3 a4 a5 a6 a7 a8 a9 a s o
  -- a row vector broadcast twice is read, at (a, s, o), at o
  have hrow1 : idx_main_v1 (idx_main_v2 (ix3 a s o)) = ix1 o :=
    funext fun d => Fin.ext (by match d with | ⟨0, _⟩ => rfl)
  have hrow5 : idx_main_v5 (idx_main_v6 (ix3 a s o)) = ix1 o :=
    funext fun d => Fin.ext (by match d with | ⟨0, _⟩ => rfl)
  have hrow11 : idx_main_v11 (idx_main_v12 (ix3 a s o)) = ix1 o :=
    funext fun d => Fin.ext (by match d with | ⟨0, _⟩ => rfl)
  have hrow19 : idx_main_v19 (idx_main_v20 (ix3 a s o)) = ix1 o :=
    funext fun d => Fin.ext (by match d with | ⟨0, _⟩ => rfl)
  -- the previous output's row, broadcast once, is read at (0, 0, o)
  have hprev : idx_main_v25 (ix3 a s o) = (ix3 0 0 o : S1x1x4096.Idx) :=
    funext fun d => Fin.ext (by match d with | ⟨0, _⟩ => rfl | ⟨1, _⟩ => rfl | ⟨2, _⟩ => rfl)
  -- the two projections contract the last axis of the left operand with the first of the right
  have hl0 : ∀ k : Fin 4096, lidx_main_v0 (ix3 a s o) k = ix3 a s k := fun k =>
    funext fun d => Fin.ext (by match d with | ⟨0, _⟩ => rfl | ⟨1, _⟩ => rfl | ⟨2, _⟩ => rfl)
  have hr0 : ∀ k : Fin 4096, ridx_main_v0 (ix3 a s o) k = ix2 k o := fun k =>
    funext fun d => Fin.ext (by match d with | ⟨0, _⟩ => rfl | ⟨1, _⟩ => rfl)
  have hl4 : ∀ k : Fin 2048, lidx_main_v4 (ix3 a s o) k = ix3 a s k := fun k =>
    funext fun d => Fin.ext (by match d with | ⟨0, _⟩ => rfl | ⟨1, _⟩ => rfl | ⟨2, _⟩ => rfl)
  have hr4 : ∀ k : Fin 2048, ridx_main_v4 (ix3 a s o) k = ix2 k o := fun k =>
    funext fun d => Fin.ext (by match d with | ⟨0, _⟩ => rfl | ⟨1, _⟩ => rfl)
  rw [val_main_v29_apply, val_main_v28_apply, val_main_cst_3_apply, val_main_v27_apply, val_main_v26_apply,
    val_main_v21_apply, val_main_v20_apply, val_main_v19_apply, val_main_v18_apply, val_main_v17_apply, val_main_cst_1_apply,
    val_main_v16_apply, val_main_v13_apply, val_main_v10_apply, val_main_v9_apply, val_main_cst_apply,
    val_main_v8_apply, val_main_v3_apply, val_main_v0_apply, val_main_v2_apply, val_main_v1_apply,
    val_main_v7_apply, val_main_v4_apply, val_main_v6_apply, val_main_v5_apply,
    val_main_v12_apply, val_main_v11_apply, val_main_v15_apply, val_main_v14_apply, val_main_cst_0_apply,
    val_main_v25_apply, val_main_v24_apply, val_main_v23_apply, val_main_cst_2_apply, val_main_v22_apply]
  simp only [hrow1, hrow5, hrow11, hrow19, hprev, hl0, hr0, hl4, hr4, Ideal.ofBits_def, Ideal.addf_def, Ideal.subf_def,
    Ideal.mulf_def, Ideal.hostUnary_tanh_def]
  rfl

end Cert.RefSide

end
-- ==== Proof.LibExtReals.lean ====
/-
  Real numbers inside the extended reals: finite sums, the law that moves a division by a nonzero real and a product
  across a double sum, and the two constant words used by the convolution (1 and ε).

  On the extended reals a sum cannot be moved across a product in general (it fails at ±∞). When every entry is a real
  number the computation is one in ℝ, where it is the distributive law and an exchange of the two sums:
      Σ_k ((Σ_{e ∈ E} X(e, k)) / c) · W(k)  =  (Σ_{e ∈ E} Σ_k X(e, k) · W(k)) · (1 / c)     (c a nonzero real).
-/
import Idealize.ShloMosaic.PureOps.Ideal
import Idealize.ShloMosaic.PureOps.Ideal.Laws

noncomputable section

open scoped BigOperators

namespace Cert.Net

open Idealize.ShloMosaic

/-! ## Finite sums of reals -/

/-- The inclusion of ℝ commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of ℝ commutes with the larger of two. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- A finite sum of ones is a nonnegative real. -/
theorem sum_ones_real {ι : Type} (s : Finset ι) : ∃ r : ℝ, 0 ≤ r ∧ ∑ _j ∈ s, (1 : EReal) = (r : EReal) := by
  classical
  induction s using Finset.induction_on with
  | empty => exact ⟨0, le_refl _, by simp⟩
  | insert a s ha ih =>
    obtain ⟨r, hr, h⟩ := ih
    refine ⟨1 + r, by linarith, ?_⟩
    rw [Finset.sum_insert ha, h, EReal.coe_add, EReal.coe_one]

/-! ## The law -/

/-- In ℝ: scaling each inner sum by d and then summing against W is summing the products first and scaling once. -/
theorem real_law {ι κ : Type} [Fintype ι] [Fintype κ] (L : ι → Prop) [DecidablePred L] (X : ι → κ → ℝ) (W : κ → ℝ) (d : ℝ) :
    ∑ k, ((∑ e, if L e then X e k else 0) * d) * W k = (∑ e, if L e then ∑ k, X e k * W k else 0) * d := by
  simp only [Finset.sum_mul]
  rw [Finset.sum_comm]
  refine Finset.sum_congr rfl fun e _ => ?_
  by_cases h : L e
  · simp only [if_pos h, Finset.sum_mul]
    refine Finset.sum_congr rfl fun k _ => by ring
  · simp [if_neg h]

/-- On the extended reals, for entries that are real numbers and a nonzero real divisor c: dividing the restricted sum
    of each column by c and then summing against W is the restricted sum of the rows' products with W, times 1 / c. -/
theorem ereal_law {ι κ : Type} [Fintype ι] [Fintype κ] (L : ι → Prop) [DecidablePred L] (X : ι → κ → EReal) (W : κ → EReal)
    (hX : ∀ e k, ∃ r : ℝ, X e k = (r : EReal)) (hW : ∀ k, ∃ r : ℝ, W k = (r : EReal)) (c : ℝ) (hc : c ≠ 0) :
    ∑ k, Ideal.div (∑ e, if L e then X e k else 0) (c : EReal) * W k
      = (∑ e, if L e then ∑ k, X e k * W k else 0) * Ideal.div 1 (c : EReal) := by
  choose X' hX' using hX
  choose W' hW' using hW
  have hite : ∀ (p : Prop) [Decidable p] (a : ℝ), (if p then (a : EReal) else 0) = ((if p then a else 0 : ℝ) : EReal) := by
    intro p _ a; split <;> simp
  simp only [Ideal.div_coe hc, one_mul, hX', hW', hite, ← EReal.coe_mul, ← coe_sum]
  exact congrArg _ (real_law L X' W' (1 / c))

/-! ## Two words -/

/-- The word 0x3F800000 denotes 1. -/
theorem one_word : Ideal.ofBits .f32 0x3F800000#32 = 1 := by
  simp [Ideal.ofBits, Ideal.ieee]
  rw [← EReal.coe_mul]
  norm_num

/-- The word 0x2B8CBCCC (ε) denotes a positive real. -/
theorem eps_word : ∃ r : ℝ, 0 < r ∧ Ideal.ofBits .f32 0x2B8CBCCC#32 = (r : EReal) := by
  refine ⟨9223372 * (2 ^ 63)⁻¹, by positivity, ?_⟩
  simp [Ideal.ofBits, Ideal.ieee]

/-! ## Being a real number is kept by the arithmetic -/

/-- A sum of two reals is a real. -/
theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- A product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- A finite sum of reals is a real. -/
theorem real_sum {ι : Type} (s : Finset ι) (f : ι → EReal) (hf : ∀ i, ∃ r : ℝ, f i = (r : EReal)) :
    ∃ r : ℝ, ∑ i ∈ s, f i = (r : EReal) := by
  choose f' hf' using hf
  exact ⟨∑ i ∈ s, f' i, by rw [coe_sum]; exact Finset.sum_congr rfl fun i _ => hf' i⟩

/-- A real or zero, by cases, is a real. -/
theorem real_ite (p : Prop) [Decidable p] {x : EReal} (hx : ∃ r : ℝ, x = (r : EReal)) :
    ∃ r : ℝ, (if p then x else 0) = (r : EReal) := by
  split
  · exact hx
  · exact ⟨0, EReal.coe_zero.symm⟩

/-- The larger of two reals is a real. -/
theorem real_max {x y : EReal} (hx : ∃ r : ℝ, x = (r : EReal)) (hy : ∃ r : ℝ, y = (r : EReal)) :
    ∃ r : ℝ, max x y = (r : EReal) := by
  obtain ⟨a, rfl⟩ := hx; obtain ⟨b, rfl⟩ := hy
  exact ⟨max a b, (coe_max a b).symm⟩

/-- A real divided by a nonzero real is a real. -/
theorem real_div {x : EReal} (hx : ∃ r : ℝ, x = (r : EReal)) {c : ℝ} (hc : c ≠ 0) :
    ∃ r : ℝ, Ideal.div x (c : EReal) = (r : EReal) := by
  obtain ⟨a, rfl⟩ := hx
  exact ⟨a * (1 / c), by rw [Ideal.div_coe hc, EReal.coe_mul]⟩

/-- The square root of a nonnegative real is a nonnegative real. -/
theorem real_sqrt {r : ℝ} (hr : 0 ≤ r) : Ideal.sqrt (r : EReal) = ((Real.sqrt r : ℝ) : EReal) := by
  rw [Ideal.sqrt_coe, if_neg (not_lt.mpr hr)]

end Cert.Net

end
-- ==== Proof.Algebra.lean ====
/-
  The fused and the layered arrangement agree on real entries.

  Write h, t, g for the three constants (all real numbers), P1 = Σ_d x1·W1 and P2 = Σ_d x2·W2 for the two projections,
  n for the noise entry, k for the bucket entry and p for the previous output's entry. The fused argument of tanh is
      ((Σ_d x1·(W1·h) + Σ_d x2·(W2·h)) + n·t) + ((((g·k + h·b1) + h·b2) + b) − t·|p|)
  and the layered one is
      (g·k + ((h·((P1 + b1) + (P2 + b2)) + b) + n·t)) − t·|p|.
  In ℝ, Σ_d x·(W·h) = h·Σ_d x·W (the factor h moves out of the sum), h·((P1 + b1) + (P2 + b2)) = h·P1 + h·b1 + h·P2 + h·b2
  (distributivity), and the rest is a regrouping of a sum. On the extended reals these steps need every entry to be a real
  number, and then the whole computation is the image of the one in ℝ.
-/
import proofs.«122913_j10041633538618_2_alg».proof.Proof.Formula
import proofs.«122913_j10041633538618_2_alg».proof.Proof.LibExtReals

noncomputable section

open scoped BigOperators

namespace Cert.Formula

open Idealize.ShloMosaic Idealize.ShloMosaic.ValueIdx

/-! ## The three constants are real numbers -/

/-- One half is a real number. -/
theorem cHalf_real : ∃ r : ℝ, cHalf = (r : EReal) := by
  refine ⟨8388608 * (2 ^ 24)⁻¹, ?_⟩
  simp [cHalf, Ideal.ofBits, Ideal.ieee]

/-- One tenth (rounded) is a real number. -/
theorem cTenth_real : ∃ r : ℝ, cTenth = (r : EReal) := by
  refine ⟨13421773 * (2 ^ 27)⁻¹, ?_⟩
  simp [cTenth, Ideal.ofBits, Ideal.ieee]

/-- Nine tenths (rounded) is a real number. -/
theorem cDecay_real : ∃ r : ℝ, cDecay = (r : EReal) := by
  refine ⟨15099494 * (2 ^ 24)⁻¹, ?_⟩
  simp [cDecay, Ideal.ofBits, Ideal.ieee]

/-! ## The law in ℝ -/

/-- In ℝ: moving the factor h out of the two sums, distributing it over the two biases, and regrouping. -/
theorem real_law {ι κ : Type} [Fintype ι] [Fintype κ] (X1 V1 : ι → ℝ) (X2 V2 : κ → ℝ) (n c1 c2 c k q h t g : ℝ) :
    ((∑ d, X1 d * (V1 d * h) + ∑ d, X2 d * (V2 d * h)) + n * t) + ((((g * k + h * c1) + h * c2) + c) - t * q)
      = (g * k + ((h * ((∑ d, X1 d * V1 d + c1) + (∑ d, X2 d * V2 d + c2)) + c) + n * t)) - t * q := by
  have e1 : ∑ d, X1 d * (V1 d * h) = h * ∑ d, X1 d * V1 d := by
    rw [Finset.mul_sum]; exact Finset.sum_congr rfl fun d _ => by ring
  have e2 : ∑ d, X2 d * (V2 d * h) = h * ∑ d, X2 d * V2 d := by
    rw [Finset.mul_sum]; exact Finset.sum_congr rfl fun d _ => by ring
  rw [e1, e2]; ring

/-! ## The law on the extended reals -/

/-- For real entries the fused and the layered arrangement are equal at every index. -/
theorem fused_eq_layered (x1 : SX1.Idx → EReal) (x2 : SX2.Idx → EReal) (noise : SX1.Idx → EReal) (W1 : SW1.Idx → EReal)
    (b1 : SV.Idx → EReal) (W2 : SW2.Idx → EReal) (b2 b bucket : SV.Idx → EReal) (prev : SP.Idx → EReal)
    (hx1 : ∀ i, ∃ r : ℝ, x1 i = (r : EReal)) (hx2 : ∀ i, ∃ r : ℝ, x2 i = (r : EReal))
    (hnoise : ∀ i, ∃ r : ℝ, noise i = (r : EReal)) (hW1 : ∀ i, ∃ r : ℝ, W1 i = (r : EReal))
    (hb1 : ∀ i, ∃ r : ℝ, b1 i = (r : EReal)) (hW2 : ∀ i, ∃ r : ℝ, W2 i = (r : EReal))
    (hb2 : ∀ i, ∃ r : ℝ, b2 i = (r : EReal)) (hb : ∀ i, ∃ r : ℝ, b i = (r : EReal))
    (hbucket : ∀ i, ∃ r : ℝ, bucket i = (r : EReal)) (hprev : ∀ i, ∃ r : ℝ, prev i = (r : EReal))
    (a : Fin 4) (s : Fin 2048) (o : Fin 4096) :
    fused x1 x2 noise W1 b1 W2 b2 b bucket prev a s o = layered x1 x2 noise W1 b1 W2 b2 b bucket prev a s o := by
  obtain ⟨h, hh⟩ := cHalf_real
  obtain ⟨t, ht⟩ := cTenth_real
  obtain ⟨g, hg⟩ := cDecay_real
  choose x1' hx1' using hx1
  choose x2' hx2' using hx2
  choose noise' hnoise' using hnoise
  choose W1' hW1' using hW1
  choose b1' hb1' using hb1
  choose W2' hW2' using hW2
  choose b2' hb2' using hb2
  choose b' hb' using hb
  choose bucket' hbucket' using hbucket
  choose prev' hprev' using hprev
  unfold fused layered fusedAcc featRow
  refine congrArg (fun z => cOne * Ideal.tanh z) ?_
  simp only [hh, ht, hg, hx1', hx2', hnoise', hW1', hb1', hW2', hb2', hb', hbucket', hprev', ← EReal.coe_neg, ← Cert.Net.coe_max,
    ← EReal.coe_mul, ← EReal.coe_add, ← EReal.coe_sub, ← Cert.Net.coe_sum]
  exact congrArg (fun r : ℝ => (r : EReal))
    (real_law (fun d => x1' (ix3 a s d)) (fun d => W1' (ix2 d o)) (fun d => x2' (ix3 a s d)) (fun d => W2' (ix2 d o))
      (noise' (ix3 a s o)) (b1' (ix1 o)) (b2' (ix1 o)) (b' (ix1 o)) (bucket' (ix1 o))
      (max (prev' (ix3 0 0 o)) (-(prev' (ix3 0 0 o)))) h t g)

end Cert.Formula

end
-- ==== Proof.LibFinite.lean ====
/-
  A finiteness test read back. The predicate  all(|x| < +inf)  of a float array x prints as a reduction by "and", from the
  constant 1, of the entrywise comparison of |x| with the broadcast scalar whose word is the +inf pattern. On the extended
  reals |x| is max(x, -x) and that word is ⊤; so if the reduction, taken over all axes, is 1, every entry of x is a real
  number: an entry ⊤ or ⊥ would have |x| = ⊤, which is not below ⊤. Generic in the shape.
-/
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.LibFinite

open Idealize.ShloMosaic Idealize.ShloMosaic.ValueIdx

instance : Subsingleton (⟨0, ![]⟩ : Shape).Idx := ⟨fun a b => funext fun d => d.elim0⟩

/-- The +inf pattern denotes ⊤. -/
theorem inf_word : Ideal.ofBits .f32 0x7F800000#32 = (⊤ : EReal) := by
  simp [Ideal.ofBits, Ideal.ieee]

/-- An extended real whose absolute value is below ⊤ is a real number. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- all(|x| < +inf) = 1 gives: every entry of x is real. -/
theorem real_of_all {S : Shape} {axes : List (Fin S.rank)} (x : FVec Ideal S .f32)
    (bc : (⟨0, ![]⟩ : Shape).BroadcastsInDim S ![]) (h : S.ReducesTo axes ⟨0, ![]⟩) (hu : 0 < (⟨0, ![]⟩ : Shape).numel)
    (j : (⟨0, ![]⟩ : Shape).Idx)
    (e : Host.reduce IntOp.andi
        (cmpf .olt (Host.absf x) (broadcastInDim S ![] bc (constant ⟨0, ![]⟩ .f32 0x7F800000#32)))
        (constantI ⟨0, ![]⟩ 1 1#1) h hu j = 1#1) :
    ∀ i, ∃ r : ℝ, x i = (r : EReal) := fun i => by
  have hi := Host.reduce_andi_all _ _ h hu j e i
  have hb : broadcastInDim S ![] bc (constant (F := Ideal) ⟨0, ![]⟩ .f32 0x7F800000#32) i = (⊤ : EReal) := by
    rw [broadcastInDim_apply ![] bc _ i ix0 fun d => d.elim0]
    exact inf_word
  have hc : Ideal.cmp .olt (max (x i) (-(x i))) (broadcastInDim S ![] bc (constant (F := Ideal) ⟨0, ![]⟩ .f32 0x7F800000#32) i) = 1#1 := hi
  rw [hb] at hc
  refine real_of_abs_lt_top (x i) ?_
  by_contra hlt
  have : Ideal.cmp .olt (max (x i) (-(x i))) ⊤ = 0#1 := by
    show BitVec.ofBool (decide (max (x i) (-(x i)) < ⊤)) = 0#1
    rw [decide_eq_false hlt]; rfl
  rw [this] at hc
  exact absurd hc (by decide)

end Cert.LibFinite

end
-- ==== Proof.Finite.lean ====
/-
  Finite inputs are real inputs.

  The precondition is one bit: the conjunction, over the ten argument arrays, of the tests all(|x| < +inf). If the bit is 1
  then each of the ten tests is 1 (a conjunction of bits is 1 only when both are), and a test all(|x| < +inf) that is 1
  says every entry of x is a real number: an entry ⊤ or ⊥ has |x| = ⊤, which is not below ⊤.
-/
import proofs.«122913_j10041633538618_2_alg».proof.Pre_finite_inputs
import proofs.«122913_j10041633538618_2_alg».proof.Proof.LibFinite

noncomputable section

namespace Cert.Finite

open Idealize.ShloMosaic Idealize.ShloMosaic.ValueIdx Cert.Pre_finite_inputs

variable [Facts]

/-- If the finiteness test of the ten arrays is 1, every entry of every array is a real number. -/
theorem real_of_finite_inputs
    (a0 : FVec Ideal S4x2048x4096 .f32) (a1 : FVec Ideal S4x2048x2048 .f32) (a2 : FVec Ideal S4x2048x4096 .f32)
    (a3 : FVec Ideal S4096x4096 .f32) (a4 : FVec Ideal S4096 .f32) (a5 : FVec Ideal S2048x4096 .f32)
    (a6 a7 a8 : FVec Ideal S4096 .f32) (a9 : FVec Ideal S1x1x4096 .f32)
    (h : fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal))
      ∧ (∀ i, ∃ r : ℝ, a9 i = (r : EReal)) := by
  have h0 := congrFun h ix0
  dsimp only [fn, fn_part1, fn_part2] at h0
  -- the bit is the left-nested conjunction of the ten tests, the last array's test outermost
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨Cert.LibFinite.real_of_all a0 _ _ _ ix0 e0, Cert.LibFinite.real_of_all a1 _ _ _ ix0 e1,
    Cert.LibFinite.real_of_all a2 _ _ _ ix0 e2, Cert.LibFinite.real_of_all a3 _ _ _ ix0 e3,
    Cert.LibFinite.real_of_all a4 _ _ _ ix0 e4, Cert.LibFinite.real_of_all a5 _ _ _ ix0 e5,
    Cert.LibFinite.real_of_all a6 _ _ _ ix0 e6, Cert.LibFinite.real_of_all a7 _ _ _ ix0 e7,
    Cert.LibFinite.real_of_all a8 _ _ _ ix0 e8, Cert.LibFinite.real_of_all a9 _ _ _ ix0 e9⟩

end Cert.Finite

end
-- ==== Proof.lean ====
/-
  A fused two-projection layer against its layered reference.

  The kernel computes, for x1[4,2048,4096], x2[4,2048,2048], noise, W1, b1, W2, b2, b, bucket and prev,
      tanh( (x1·(W1/2) + x2·(W2/2)) + noise·t + ((g·bucket + b1/2 + b2/2 + b) − t·|prev|) )
  on a 4 × 4 × 12 grid: each output tile accumulates twelve 512-deep slabs (eight of the first product, four of the
  second) in a scratch accumulator and is finished and stored at the twelfth. The reference computes
      tanh( g·bucket + ((1/2)·((x1·W1 + b1) + (x2·W2 + b2)) + b + noise·t) − t·|prev| ).
  On the extended reals the two agree when every input entry is a real number (the precondition): the step between
  them is the distributive law, which fails at ±∞.

  The three frames: the kernel's program (at the word level and at the ideal values) by the accumulation over the grid
  (Proof/KbFrame.lean, Proof/KiFrame.lean); the reference's by its run. The idealization changed no operation. The
  algebraic claim: the kernel's result is the fused arrangement of its arguments (Proof/KiValue.lean), the
  reference's result the layered one (Proof/RefSide.lean), and for real entries (Proof/Finite.lean) the two
  arrangements are equal (Proof/Algebra.lean).
-/
import proofs.«122913_j10041633538618_2_alg».proof.Defs
import proofs.«122913_j10041633538618_2_alg».proof.Proof.Gen.Kernel
import proofs.«122913_j10041633538618_2_alg».proof.Proof.Gen.KernelIdeal
import proofs.«122913_j10041633538618_2_alg».proof.Proof.Gen.ReferenceIdeal
import proofs.«122913_j10041633538618_2_alg».proof.Proof.Gen.Pre_finite_inputs
import proofs.«122913_j10041633538618_2_alg».proof.Proof.Gen.ReferenceIdeal.Read
import proofs.«122913_j10041633538618_2_alg».proof.Proof.KbFrame
import proofs.«122913_j10041633538618_2_alg».proof.Proof.KiValue
import proofs.«122913_j10041633538618_2_alg».proof.Proof.RefSide
import proofs.«122913_j10041633538618_2_alg».proof.Proof.Algebra
import proofs.«122913_j10041633538618_2_alg».proof.Proof.Finite
import Idealize.ShloMosaic.Adequacy
import Idealize.ShloMosaic.Init

noncomputable section

namespace Cert.Proof

open Idealize.ShloMosaic Idealize.SL.Sem

/-- The word-level program runs and leaves its arguments unchanged. -/
theorem frame_k : Cert.frame_Kernel (hKernel := Cert.Kernel.Gen.facts) (hPre_finite_inputs := Cert.Pre_finite_inputs.Gen.facts) :=
  fun m ρ _ => Cert.Kernel.Acc.frame m ρ

/-- So does the program read at the ideal values. -/
theorem frame_ki : Cert.frame_KernelIdeal (hKernelIdeal := Cert.KernelIdeal.Gen.facts) (hPre_finite_inputs := Cert.Pre_finite_inputs.Gen.facts) :=
  fun m ρ _ => Cert.KernelIdeal.Acc.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the same array: the kernel's at the fused arrangement of the arguments, the reference's at the
    layered one, equal because the precondition makes every entry a real number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Acc.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := Cert.Finite.real_of_finite_inputs _ _ _ _ _ _ _ _ _ _ (hpre c)
  rw [Cert.ReferenceIdeal.Read.val_main_v29_eq, Cert.RefSide.val_main_v29_eq_layered,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]
  funext i
  exact (Cert.Formula.fused_eq_layered _ _ _ _ _ _ _ _ _ _ h0 h1 h2 h3 h4 h5 h6 h7 h8 h9 (i 0) (i 1) (i 2)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
